-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x128x128 : Shape := ⟨4, ![4, 64, 128, 128]⟩
abbrev S4x8x25x16384 : Shape := ⟨4, ![4, 8, 25, 16384]⟩
abbrev S_ : Shape := ⟨0, ![]⟩

class Facts : Prop where
  bcast_S_S4x64x128x128 : S_.BroadcastsInDim S4x64x128x128 (![] : Fin 0 → Fin S4x64x128x128.rank)
  reducesTo_S4x64x128x128_S_d0_1_2_3 : S4x64x128x128.ReducesTo [0, 1, 2, 3] S_
  h_S_ : 0 < S_.numel
  bcast_S_S4x8x25x16384 : S_.BroadcastsInDim S4x8x25x16384 (![] : Fin 0 → Fin S4x8x25x16384.rank)
  reducesTo_S4x8x25x16384_S_d0_1_2_3 : S4x8x25x16384.ReducesTo [0, 1, 2, 3] S_

variable [Facts]

def fn {F : FTy → Type} [FloatOps F] (main_arg0 : FVec F S4x64x128x128 .f32) (main_arg1 : FVec F S4x8x25x16384 .f32) : IVec S_ 1 :=
  let main_v0 : FVec F S4x64x128x128 .f32 := Host.absf main_arg0
  let main_cst : FVec F S_ .f32 := constant S_ .f32 0x7F800000#32
  let main_v1 : FVec F S4x64x128x128 .f32 := broadcastInDim S4x64x128x128 ![] bcast_S_S4x64x128x128 main_cst
  let main_v2 : IVec S4x64x128x128 1 := cmpf .olt main_v0 main_v1
  let main_c : IVec S_ 1 := constantI S_ 1 1#1
  let main_v3 : IVec S_ 1 := (fun x v => Host.reduce IntOp.andi x v reducesTo_S4x64x128x128_S_d0_1_2_3 h_S_) main_v2 main_c
  let main_v4 : FVec F S4x8x25x16384 .f32 := Host.absf main_arg1
  let main_cst_0 : FVec F S_ .f32 := constant S_ .f32 0x7F800000#32
  let main_v5 : FVec F S4x8x25x16384 .f32 := broadcastInDim S4x8x25x16384 ![] bcast_S_S4x8x25x16384 main_cst_0
  let main_v6 : IVec S4x8x25x16384 1 := cmpf .olt main_v4 main_v5
  let main_c_1 : IVec S_ 1 := constantI S_ 1 1#1
  let main_v7 : IVec S_ 1 := (fun x v => Host.reduce IntOp.andi x v reducesTo_S4x8x25x16384_S_d0_1_2_3 h_S_) main_v6 main_c_1
  let main_v8 : IVec S_ 1 := andi main_v3 main_v7
  main_v8
-- ==== Kernel.lean ====
abbrev S4x64x128x128 : Shape := ⟨4, ![4, 64, 128, 128]⟩
abbrev S4x8x25x16384 : Shape := ⟨4, ![4, 8, 25, 16384]⟩
abbrev S_ : Shape := ⟨0, ![]⟩
abbrev S4x64x132x132 : Shape := ⟨4, ![4, 64, 132, 132]⟩
abbrev S4x8x25x128x128 : Shape := ⟨5, ![4, 8, 25, 128, 128]⟩
abbrev S1x64x132x132 : Shape := ⟨4, ![1, 64, 132, 132]⟩
abbrev S1x8x25x128x128 : Shape := ⟨5, ![1, 8, 25, 128, 128]⟩
abbrev S1x64x128x128 : Shape := ⟨4, ![1, 64, 128, 128]⟩
abbrev S8x128x128 : Shape := ⟨3, ![8, 128, 128]⟩
abbrev S1x8x128x128 : Shape := ⟨4, ![1, 8, 128, 128]⟩
abbrev S1x8x1x128x128 : Shape := ⟨5, ![1, 8, 1, 128, 128]⟩

abbrev nBuf : Space → Nat
  | .hbm => 9
  | .vmem => 6
  | .smem => 0
  | _ => 0

abbrev bufTy : (tb : Table) → Fin (tcTables nBuf tb) → BufTy
  | .hbm, ⟨0, _⟩ => ⟨S4x64x128x128, .f32⟩
  | .hbm, ⟨1, _⟩ => ⟨S4x8x25x16384, .f32⟩
  | .hbm, ⟨2, _⟩ => ⟨S_, .i32⟩
  | .hbm, ⟨3, _⟩ => ⟨S_, .f32⟩
  | .hbm, ⟨4, _⟩ => ⟨S4x64x132x132, .f32⟩
  | .hbm, ⟨5, _⟩ => ⟨S4x64x132x132, .bf16⟩
  | .hbm, ⟨6, _⟩ => ⟨S4x8x25x128x128, .f32⟩
  | .hbm, ⟨7, _⟩ => ⟨S4x8x25x128x128, .bf16⟩
  | .hbm, ⟨8, _⟩ => ⟨S4x64x128x128, .f32⟩
  | .local _ .vmem, ⟨0, _⟩ => ⟨S1x64x132x132, .bf16⟩
  | .local _ .vmem, ⟨1, _⟩ => ⟨S1x64x132x132, .bf16⟩
  | .local _ .vmem, ⟨2, _⟩ => ⟨S1x8x25x128x128, .bf16⟩
  | .local _ .vmem, ⟨3, _⟩ => ⟨S1x8x25x128x128, .bf16⟩
  | .local _ .vmem, ⟨4, _⟩ => ⟨S1x64x128x128, .f32⟩
  | .local _ .vmem, ⟨5, _⟩ => ⟨S1x64x128x128, .f32⟩
  | _, _ => ⟨S4x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  v1
def k0_off1 (k0_t1 : Fin k0_t1_loop.trips) : Fin 4 → Nat :=
  let c0 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v4 : Index := Scalar.indexCast v2
  let c0_2 : Index := 0#32
  let c0_3 : Index := 0#32
  ![0, v4.toNat, 0, 0]
def k0_off2 (k0_t1 : Fin k0_t1_loop.trips) : Fin 4 → Nat :=
  let c0_9 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v13 : Index := Scalar.indexCast v2
  let c0_10 : Index := 0#32
  let c1 : Index := 1#32
  ![0, v13.toNat, 0, 1]
def k0_off3 (k0_t1 : Fin k0_t1_loop.trips) : Fin 4 → Nat :=
  let c0_16 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v22 : Index := Scalar.indexCast v2
  let c0_17 : Index := 0#32
  let c2 : Index := 2#32
  ![0, v22.toNat, 0, 2]
def k0_off4 (k0_t1 : Fin k0_t1_loop.trips) : Fin 4 → Nat :=
  let c0_23 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v31 : Index := Scalar.indexCast v2
  let c0_24 : Index := 0#32
  let c3 : Index := 3#32
  ![0, v31.toNat, 0, 3]
def k0_off5 (k0_t1 : Fin k0_t1_loop.trips) : Fin 4 → Nat :=
  let c0_30 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v40 : Index := Scalar.indexCast v2
  let c0_31 : Index := 0#32
  let c4 : Index := 4#32
  ![0, v40.toNat, 0, 4]
def k0_off6 (k0_t1 : Fin k0_t1_loop.trips) : Fin 4 → Nat :=
  let c0_37 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v49 : Index := Scalar.indexCast v2
  let c1_38 : Index := 1#32
  let c0_39 : Index := 0#32
  ![0, v49.toNat, 1, 0]
def k0_off7 (k0_t1 : Fin k0_t1_loop.trips) : Fin 4 → Nat :=
  let c0_44 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v58 : Index := Scalar.indexCast v2
  let c1_45 : Index := 1#32
  let c1_46 : Index := 1#32
  ![0, v58.toNat, 1, 1]
def k0_off8 (k0_t1 : Fin k0_t1_loop.trips) : Fin 4 → Nat :=
  let c0_51 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v67 : Index := Scalar.indexCast v2
  let c1_52 : Index := 1#32
  let c2_53 : Index := 2#32
  ![0, v67.toNat, 1, 2]
def k0_off9 (k0_t1 : Fin k0_t1_loop.trips) : Fin 4 → Nat :=
  let c0_58 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v76 : Index := Scalar.indexCast v2
  let c1_59 : Index := 1#32
  let c3_60 : Index := 3#32
  ![0, v76.toNat, 1, 3]
def k0_off10 (k0_t1 : Fin k0_t1_loop.trips) : Fin 4 → Nat :=
  let c0_65 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v85 : Index := Scalar.indexCast v2
  let c1_66 : Index := 1#32
  let c4_67 : Index := 4#32
  ![0, v85.toNat, 1, 4]
def k0_off11 (k0_t1 : Fin k0_t1_loop.trips) : Fin 4 → Nat :=
  let c0_72 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v94 : Index := Scalar.indexCast v2
  let c2_73 : Index := 2#32
  let c0_74 : Index := 0#32
  ![0, v94.toNat, 2, 0]
def k0_off12 (k0_t1 : Fin k0_t1_loop.trips) : Fin 4 → Nat :=
  let c0_79 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v103 : Index := Scalar.indexCast v2
  let c2_80 : Index := 2#32
  let c1_81 : Index := 1#32
  ![0, v103.toNat, 2, 1]
def k0_off13 (k0_t1 : Fin k0_t1_loop.trips) : Fin 4 → Nat :=
  let c0_86 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v112 : Index := Scalar.indexCast v2
  let c2_87 : Index := 2#32
  let c2_88 : Index := 2#32
  ![0, v112.toNat, 2, 2]
def k0_off14 (k0_t1 : Fin k0_t1_loop.trips) : Fin 4 → Nat :=
  let c0_93 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v121 : Index := Scalar.indexCast v2
  let c2_94 : Index := 2#32
  let c3_95 : Index := 3#32
  ![0, v121.toNat, 2, 3]
def k0_off15 (k0_t1 : Fin k0_t1_loop.trips) : Fin 4 → Nat :=
  let c0_100 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v130 : Index := Scalar.indexCast v2
  let c2_101 : Index := 2#32
  let c4_102 : Index := 4#32
  ![0, v130.toNat, 2, 4]
def k0_off16 (k0_t1 : Fin k0_t1_loop.trips) : Fin 4 → Nat :=
  let c0_107 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v139 : Index := Scalar.indexCast v2
  let c3_108 : Index := 3#32
  let c0_109 : Index := 0#32
  ![0, v139.toNat, 3, 0]
def k0_off17 (k0_t1 : Fin k0_t1_loop.trips) : Fin 4 → Nat :=
  let c0_114 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v148 : Index := Scalar.indexCast v2
  let c3_115 : Index := 3#32
  let c1_116 : Index := 1#32
  ![0, v148.toNat, 3, 1]
def k0_off18 (k0_t1 : Fin k0_t1_loop.trips) : Fin 4 → Nat :=
  let c0_121 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v157 : Index := Scalar.indexCast v2
  let c3_122 : Index := 3#32
  let c2_123 : Index := 2#32
  ![0, v157.toNat, 3, 2]
def k0_off19 (k0_t1 : Fin k0_t1_loop.trips) : Fin 4 → Nat :=
  let c0_128 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v166 : Index := Scalar.indexCast v2
  let c3_129 : Index := 3#32
  let c3_130 : Index := 3#32
  ![0, v166.toNat, 3, 3]
def k0_off20 (k0_t1 : Fin k0_t1_loop.trips) : Fin 4 → Nat :=
  let c0_135 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v175 : Index := Scalar.indexCast v2
  let c3_136 : Index := 3#32
  let c4_137 : Index := 4#32
  ![0, v175.toNat, 3, 4]
def k0_off21 (k0_t1 : Fin k0_t1_loop.trips) : Fin 4 → Nat :=
  let c0_142 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v184 : Index := Scalar.indexCast v2
  let c4_143 : Index := 4#32
  let c0_144 : Index := 0#32
  ![0, v184.toNat, 4, 0]
def k0_off22 (k0_t1 : Fin k0_t1_loop.trips) : Fin 4 → Nat :=
  let c0_149 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v193 : Index := Scalar.indexCast v2
  let c4_150 : Index := 4#32
  let c1_151 : Index := 1#32
  ![0, v193.toNat, 4, 1]
def k0_off23 (k0_t1 : Fin k0_t1_loop.trips) : Fin 4 → Nat :=
  let c0_156 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v202 : Index := Scalar.indexCast v2
  let c4_157 : Index := 4#32
  let c2_158 : Index := 2#32
  ![0, v202.toNat, 4, 2]
def k0_off24 (k0_t1 : Fin k0_t1_loop.trips) : Fin 4 → Nat :=
  let c0_163 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v211 : Index := Scalar.indexCast v2
  let c4_164 : Index := 4#32
  let c3_165 : Index := 3#32
  ![0, v211.toNat, 4, 3]
def k0_off25 (k0_t1 : Fin k0_t1_loop.trips) : Fin 4 → Nat :=
  let c0_170 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v220 : Index := Scalar.indexCast v2
  let c4_171 : Index := 4#32
  let c4_172 : Index := 4#32
  ![0, v220.toNat, 4, 4]
def k0_off26 (k0_t1 : Fin k0_t1_loop.trips) : Fin 4 → Nat :=
  let c0_177 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v229 : Index := Scalar.indexCast v2
  let c0_178 : Index := 0#32
  let c0_179 : Index := 0#32
  ![0, v229.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x132x132 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x25x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4x64x128x128_S4x64x132x132_000_000_220_220 : S4x64x128x128.Pads (![0, 0, 2, 2] : Fin 4 → Nat) ![0, 0, 2, 2] ![0, 0, 0, 0] S4x64x132x132
  h_S_ : 0 < S_.numel
  bitsLt_bf16_f32 : FTy.bits .bf16 < FTy.bits .f32
  shapeCasts_S4x8x25x16384_S4x8x25x128x128 : S4x8x25x16384.ShapeCasts S4x8x25x128x128
  h_S1x8x128x128 : 0 < S1x8x128x128.numel
  shapeCasts_S1x8x128x128_S8x128x128 : S1x8x128x128.ShapeCasts S8x128x128
  inb_S1x8x25x128x128_S1x8x1x128x128_0_0_0_0_0 : ∀ a, (![0, 0, 0, 0, 0] : Fin 5 → Nat) a + S1x8x1x128x128.size a ≤ S1x8x25x128x128.size a
  h_S1x8x1x128x128 : 0 < S1x8x1x128x128.numel
  shapeCasts_S1x8x1x128x128_S8x128x128 : S1x8x1x128x128.ShapeCasts S8x128x128
  inb_S1x8x25x128x128_S1x8x1x128x128_0_0_1_0_0 : ∀ a, (![0, 0, 1, 0, 0] : Fin 5 → Nat) a + S1x8x1x128x128.size a ≤ S1x8x25x128x128.size a
  inb_S1x8x25x128x128_S1x8x1x128x128_0_0_2_0_0 : ∀ a, (![0, 0, 2, 0, 0] : Fin 5 → Nat) a + S1x8x1x128x128.size a ≤ S1x8x25x128x128.size a
  inb_S1x8x25x128x128_S1x8x1x128x128_0_0_3_0_0 : ∀ a, (![0, 0, 3, 0, 0] : Fin 5 → Nat) a + S1x8x1x128x128.size a ≤ S1x8x25x128x128.size a
  inb_S1x8x25x128x128_S1x8x1x128x128_0_0_4_0_0 : ∀ a, (![0, 0, 4, 0, 0] : Fin 5 → Nat) a + S1x8x1x128x128.size a ≤ S1x8x25x128x128.size a
  inb_S1x8x25x128x128_S1x8x1x128x128_0_0_5_0_0 : ∀ a, (![0, 0, 5, 0, 0] : Fin 5 → Nat) a + S1x8x1x128x128.size a ≤ S1x8x25x128x128.size a
  inb_S1x8x25x128x128_S1x8x1x128x128_0_0_6_0_0 : ∀ a, (![0, 0, 6, 0, 0] : Fin 5 → Nat) a + S1x8x1x128x128.size a ≤ S1x8x25x128x128.size a
  inb_S1x8x25x128x128_S1x8x1x128x128_0_0_7_0_0 : ∀ a, (![0, 0, 7, 0, 0] : Fin 5 → Nat) a + S1x8x1x128x128.size a ≤ S1x8x25x128x128.size a
  inb_S1x8x25x128x128_S1x8x1x128x128_0_0_8_0_0 : ∀ a, (![0, 0, 8, 0, 0] : Fin 5 → Nat) a + S1x8x1x128x128.size a ≤ S1x8x25x128x128.size a
  inb_S1x8x25x128x128_S1x8x1x128x128_0_0_9_0_0 : ∀ a, (![0, 0, 9, 0, 0] : Fin 5 → Nat) a + S1x8x1x128x128.size a ≤ S1x8x25x128x128.size a
  inb_S1x8x25x128x128_S1x8x1x128x128_0_0_10_0_0 : ∀ a, (![0, 0, 10, 0, 0] : Fin 5 → Nat) a + S1x8x1x128x128.size a ≤ S1x8x25x128x128.size a
  inb_S1x8x25x128x128_S1x8x1x128x128_0_0_11_0_0 : ∀ a, (![0, 0, 11, 0, 0] : Fin 5 → Nat) a + S1x8x1x128x128.size a ≤ S1x8x25x128x128.size a
  inb_S1x8x25x128x128_S1x8x1x128x128_0_0_12_0_0 : ∀ a, (![0, 0, 12, 0, 0] : Fin 5 → Nat) a + S1x8x1x128x128.size a ≤ S1x8x25x128x128.size a
  inb_S1x8x25x128x128_S1x8x1x128x128_0_0_13_0_0 : ∀ a, (![0, 0, 13, 0, 0] : Fin 5 → Nat) a + S1x8x1x128x128.size a ≤ S1x8x25x128x128.size a
  inb_S1x8x25x128x128_S1x8x1x128x128_0_0_14_0_0 : ∀ a, (![0, 0, 14, 0, 0] : Fin 5 → Nat) a + S1x8x1x128x128.size a ≤ S1x8x25x128x128.size a
  inb_S1x8x25x128x128_S1x8x1x128x128_0_0_15_0_0 : ∀ a, (![0, 0, 15, 0, 0] : Fin 5 → Nat) a + S1x8x1x128x128.size a ≤ S1x8x25x128x128.size a
  inb_S1x8x25x128x128_S1x8x1x128x128_0_0_16_0_0 : ∀ a, (![0, 0, 16, 0, 0] : Fin 5 → Nat) a + S1x8x1x128x128.size a ≤ S1x8x25x128x128.size a
  inb_S1x8x25x128x128_S1x8x1x128x128_0_0_17_0_0 : ∀ a, (![0, 0, 17, 0, 0] : Fin 5 → Nat) a + S1x8x1x128x128.size a ≤ S1x8x25x128x128.size a
  inb_S1x8x25x128x128_S1x8x1x128x128_0_0_18_0_0 : ∀ a, (![0, 0, 18, 0, 0] : Fin 5 → Nat) a + S1x8x1x128x128.size a ≤ S1x8x25x128x128.size a
  inb_S1x8x25x128x128_S1x8x1x128x128_0_0_19_0_0 : ∀ a, (![0, 0, 19, 0, 0] : Fin 5 → Nat) a + S1x8x1x128x128.size a ≤ S1x8x25x128x128.size a
  inb_S1x8x25x128x128_S1x8x1x128x128_0_0_20_0_0 : ∀ a, (![0, 0, 20, 0, 0] : Fin 5 → Nat) a + S1x8x1x128x128.size a ≤ S1x8x25x128x128.size a
  inb_S1x8x25x128x128_S1x8x1x128x128_0_0_21_0_0 : ∀ a, (![0, 0, 21, 0, 0] : Fin 5 → Nat) a + S1x8x1x128x128.size a ≤ S1x8x25x128x128.size a
  inb_S1x8x25x128x128_S1x8x1x128x128_0_0_22_0_0 : ∀ a, (![0, 0, 22, 0, 0] : Fin 5 → Nat) a + S1x8x1x128x128.size a ≤ S1x8x25x128x128.size a
  inb_S1x8x25x128x128_S1x8x1x128x128_0_0_23_0_0 : ∀ a, (![0, 0, 23, 0, 0] : Fin 5 → Nat) a + S1x8x1x128x128.size a ≤ S1x8x25x128x128.size a
  inb_S1x8x25x128x128_S1x8x1x128x128_0_0_24_0_0 : ∀ a, (![0, 0, 24, 0, 0] : Fin 5 → Nat) a + S1x8x1x128x128.size a ≤ S1x8x25x128x128.size a
  shapeCasts_S8x128x128_S1x8x128x128 : S8x128x128.ShapeCasts S1x8x128x128
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x8x128x128.size a ≤ S1x64x132x132.size a
  k0_off2_inb : ∀ k0_t1 : Fin k0_t1_loop.trips, ∀ a, (k0_off2 k0_t1) a + S1x8x128x128.size a ≤ S1x64x132x132.size a
  k0_off3_inb : ∀ k0_t1 : Fin k0_t1_loop.trips, ∀ a, (k0_off3 k0_t1) a + S1x8x128x128.size a ≤ S1x64x132x132.size a
  k0_off4_inb : ∀ k0_t1 : Fin k0_t1_loop.trips, ∀ a, (k0_off4 k0_t1) a + S1x8x128x128.size a ≤ S1x64x132x132.size a
  k0_off5_inb : ∀ k0_t1 : Fin k0_t1_loop.trips, ∀ a, (k0_off5 k0_t1) a + S1x8x128x128.size a ≤ S1x64x132x132.size a
  k0_off6_inb : ∀ k0_t1 : Fin k0_t1_loop.trips, ∀ a, (k0_off6 k0_t1) a + S1x8x128x128.size a ≤ S1x64x132x132.size a
  k0_off7_inb : ∀ k0_t1 : Fin k0_t1_loop.trips, ∀ a, (k0_off7 k0_t1) a + S1x8x128x128.size a ≤ S1x64x132x132.size a
  k0_off8_inb : ∀ k0_t1 : Fin k0_t1_loop.trips, ∀ a, (k0_off8 k0_t1) a + S1x8x128x128.size a ≤ S1x64x132x132.size a
  k0_off9_inb : ∀ k0_t1 : Fin k0_t1_loop.trips, ∀ a, (k0_off9 k0_t1) a + S1x8x128x128.size a ≤ S1x64x132x132.size a
  k0_off10_inb : ∀ k0_t1 : Fin k0_t1_loop.trips, ∀ a, (k0_off10 k0_t1) a + S1x8x128x128.size a ≤ S1x64x132x132.size a
  k0_off11_inb : ∀ k0_t1 : Fin k0_t1_loop.trips, ∀ a, (k0_off11 k0_t1) a + S1x8x128x128.size a ≤ S1x64x132x132.size a
  k0_off12_inb : ∀ k0_t1 : Fin k0_t1_loop.trips, ∀ a, (k0_off12 k0_t1) a + S1x8x128x128.size a ≤ S1x64x132x132.size a
  k0_off13_inb : ∀ k0_t1 : Fin k0_t1_loop.trips, ∀ a, (k0_off13 k0_t1) a + S1x8x128x128.size a ≤ S1x64x132x132.size a
  k0_off14_inb : ∀ k0_t1 : Fin k0_t1_loop.trips, ∀ a, (k0_off14 k0_t1) a + S1x8x128x128.size a ≤ S1x64x132x132.size a
  k0_off15_inb : ∀ k0_t1 : Fin k0_t1_loop.trips, ∀ a, (k0_off15 k0_t1) a + S1x8x128x128.size a ≤ S1x64x132x132.size a
  k0_off16_inb : ∀ k0_t1 : Fin k0_t1_loop.trips, ∀ a, (k0_off16 k0_t1) a + S1x8x128x128.size a ≤ S1x64x132x132.size a
  k0_off17_inb : ∀ k0_t1 : Fin k0_t1_loop.trips, ∀ a, (k0_off17 k0_t1) a + S1x8x128x128.size a ≤ S1x64x132x132.size a
  k0_off18_inb : ∀ k0_t1 : Fin k0_t1_loop.trips, ∀ a, (k0_off18 k0_t1) a + S1x8x128x128.size a ≤ S1x64x132x132.size a
  k0_off19_inb : ∀ k0_t1 : Fin k0_t1_loop.trips, ∀ a, (k0_off19 k0_t1) a + S1x8x128x128.size a ≤ S1x64x132x132.size a
  k0_off20_inb : ∀ k0_t1 : Fin k0_t1_loop.trips, ∀ a, (k0_off20 k0_t1) a + S1x8x128x128.size a ≤ S1x64x132x132.size a
  k0_off21_inb : ∀ k0_t1 : Fin k0_t1_loop.trips, ∀ a, (k0_off21 k0_t1) a + S1x8x128x128.size a ≤ S1x64x132x132.size a
  k0_off22_inb : ∀ k0_t1 : Fin k0_t1_loop.trips, ∀ a, (k0_off22 k0_t1) a + S1x8x128x128.size a ≤ S1x64x132x132.size a
  k0_off23_inb : ∀ k0_t1 : Fin k0_t1_loop.trips, ∀ a, (k0_off23 k0_t1) a + S1x8x128x128.size a ≤ S1x64x132x132.size a
  k0_off24_inb : ∀ k0_t1 : Fin k0_t1_loop.trips, ∀ a, (k0_off24 k0_t1) a + S1x8x128x128.size a ≤ S1x64x132x132.size a
  k0_off25_inb : ∀ k0_t1 : Fin k0_t1_loop.trips, ∀ a, (k0_off25 k0_t1) a + S1x8x128x128.size a ≤ S1x64x132x132.size a
  k0_off26_inb : ∀ k0_t1 : Fin k0_t1_loop.trips, ∀ a, (k0_off26 k0_t1) a + S1x8x128x128.size a ≤ S1x64x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x132x132.size a ≤ S4x64x132x132.size a
  hwx0_0 : ∀ i : grid0.Coords, EltTy.bits .bf16 = 32 ∨ (Rect.block (s := S4x64x132x132) S1x64x132x132.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x25x128x128.size a ≤ S4x8x25x128x128.size a
  hwx0_1 : ∀ i : grid0.Coords, EltTy.bits .bf16 = 32 ∨ (Rect.block (s := S4x8x25x128x128) S1x8x25x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128x128.size a ≤ S4x64x128x128.size a
  hwx0_2 : ∀ i : grid0.Coords, EltTy.bits .f32 = 32 ∨ (Rect.block (s := S4x64x128x128) S1x64x128x128.size (cc0_transform_2 i) (hinb0_2 i)).WholeWords (EltTy.packing .f32)

variable [Facts₀]

abbrev win0_0 : Pipeline.Window sig grid0 :=
  Pipeline.Window.ofSpec (Memref.whole main_v1) S1x64x132x132.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8x25x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x128x128 : Shape := ⟨4, ![4, 64, 128, 128]⟩
abbrev S4x8x25x16384 : Shape := ⟨4, ![4, 8, 25, 16384]⟩
abbrev S_ : Shape := ⟨0, ![]⟩
abbrev S4x64x132x132 : Shape := ⟨4, ![4, 64, 132, 132]⟩
abbrev S4x64x1x128x128 : Shape := ⟨5, ![4, 64, 1, 128, 128]⟩
abbrev S4x64x16x128x128 : Shape := ⟨5, ![4, 64, 16, 128, 128]⟩
abbrev S4x64x9x128x128 : Shape := ⟨5, ![4, 64, 9, 128, 128]⟩
abbrev S4x64x25x128x128 : Shape := ⟨5, ![4, 64, 25, 128, 128]⟩
abbrev S4x8x8x25x128x128 : Shape := ⟨6, ![4, 8, 8, 25, 128, 128]⟩
abbrev S4x1x8x25x128x128 : Shape := ⟨6, ![4, 1, 8, 25, 128, 128]⟩
abbrev S4x8x8x128x128 : Shape := ⟨5, ![4, 8, 8, 128, 128]⟩

abbrev nBuf : Space → Nat
  | .hbm => 65
  | .vmem => 0
  | .smem => 0
  | _ => 0

abbrev bufTy : (tb : Table) → Fin (tcTables nBuf tb) → BufTy
  | .hbm, ⟨0, _⟩ => ⟨S4x64x128x128, .f32⟩
  | .hbm, ⟨1, _⟩ => ⟨S4x8x25x16384, .f32⟩
  | .hbm, ⟨2, _⟩ => ⟨S_, .i32⟩
  | .hbm, ⟨3, _⟩ => ⟨S_, .f32⟩
  | .hbm, ⟨4, _⟩ => ⟨S4x64x132x132, .f32⟩
  | .hbm, ⟨5, _⟩ => ⟨S4x64x128x128, .f32⟩
  | .hbm, ⟨6, _⟩ => ⟨S4x64x128x128, .f32⟩
  | .hbm, ⟨7, _⟩ => ⟨S4x64x128x128, .f32⟩
  | .hbm, ⟨8, _⟩ => ⟨S4x64x128x128, .f32⟩
  | .hbm, ⟨9, _⟩ => ⟨S4x64x128x128, .f32⟩
  | .hbm, ⟨10, _⟩ => ⟨S4x64x128x128, .f32⟩
  | .hbm, ⟨11, _⟩ => ⟨S4x64x128x128, .f32⟩
  | .hbm, ⟨12, _⟩ => ⟨S4x64x128x128, .f32⟩
  | .hbm, ⟨13, _⟩ => ⟨S4x64x128x128, .f32⟩
  | .hbm, ⟨14, _⟩ => ⟨S4x64x128x128, .f32⟩
  | .hbm, ⟨15, _⟩ => ⟨S4x64x128x128, .f32⟩
  | .hbm, ⟨16, _⟩ => ⟨S4x64x128x128, .f32⟩
  | .hbm, ⟨17, _⟩ => ⟨S4x64x128x128, .f32⟩
  | .hbm, ⟨18, _⟩ => ⟨S4x64x128x128, .f32⟩
  | .hbm, ⟨19, _⟩ => ⟨S4x64x128x128, .f32⟩
  | .hbm, ⟨20, _⟩ => ⟨S4x64x128x128, .f32⟩
  | .hbm, ⟨21, _⟩ => ⟨S4x64x128x128, .f32⟩
  | .hbm, ⟨22, _⟩ => ⟨S4x64x128x128, .f32⟩
  | .hbm, ⟨23, _⟩ => ⟨S4x64x128x128, .f32⟩
  | .hbm, ⟨24, _⟩ => ⟨S4x64x128x128, .f32⟩
  | .hbm, ⟨25, _⟩ => ⟨S4x64x128x128, .f32⟩
  | .hbm, ⟨26, _⟩ => ⟨S4x64x128x128, .f32⟩
  | .hbm, ⟨27, _⟩ => ⟨S4x64x128x128, .f32⟩
  | .hbm, ⟨28, _⟩ => ⟨S4x64x128x128, .f32⟩
  | .hbm, ⟨29, _⟩ => ⟨S4x64x128x128, .f32⟩
  | .hbm, ⟨30, _⟩ => ⟨S4x64x1x128x128, .f32⟩
  | .hbm, ⟨31, _⟩ => ⟨S4x64x1x128x128, .f32⟩
  | .hbm, ⟨32, _⟩ => ⟨S4x64x1x128x128, .f32⟩
  | .hbm, ⟨33, _⟩ => ⟨S4x64x1x128x128, .f32⟩
  | .hbm, ⟨34, _⟩ => ⟨S4x64x1x128x128, .f32⟩
  | .hbm, ⟨35, _⟩ => ⟨S4x64x1x128x128, .f32⟩
  | .hbm, ⟨36, _⟩ => ⟨S4x64x1x128x128, .f32⟩
  | .hbm, ⟨37, _⟩ => ⟨S4x64x1x128x128, .f32⟩
  | .hbm, ⟨38, _⟩ => ⟨S4x64x1x128x128, .f32⟩
  | .hbm, ⟨39, _⟩ => ⟨S4x64x1x128x128, .f32⟩
  | .hbm, ⟨40, _⟩ => ⟨S4x64x1x128x128, .f32⟩
  | .hbm, ⟨41, _⟩ => ⟨S4x64x1x128x128, .f32⟩
  | .hbm, ⟨42, _⟩ => ⟨S4x64x1x128x128, .f32⟩
  | .hbm, ⟨43, _⟩ => ⟨S4x64x1x128x128, .f32⟩
  | .hbm, ⟨44, _⟩ => ⟨S4x64x1x128x128, .f32⟩
  | .hbm, ⟨45, _⟩ => ⟨S4x64x1x128x128, .f32⟩
  | .hbm, ⟨46, _⟩ => ⟨S4x64x1x128x128, .f32⟩
  | .hbm, ⟨47, _⟩ => ⟨S4x64x1x128x128, .f32⟩
  | .hbm, ⟨48, _⟩ => ⟨S4x64x1x128x128, .f32⟩
  | .hbm, ⟨49, _⟩ => ⟨S4x64x1x128x128, .f32⟩
  | .hbm, ⟨50, _⟩ => ⟨S4x64x1x128x128, .f32⟩
  | .hbm, ⟨51, _⟩ => ⟨S4x64x1x128x128, .f32⟩
  | .hbm, ⟨52, _⟩ => ⟨S4x64x1x128x128, .f32⟩
  | .hbm, ⟨53, _⟩ => ⟨S4x64x1x128x128, .f32⟩
  | .hbm, ⟨54, _⟩ => ⟨S4x64x1x128x128, .f32⟩
  | .hbm, ⟨55, _⟩ => ⟨S4x64x16x128x128, .f32⟩
  | .hbm, ⟨56, _⟩ => ⟨S4x64x9x128x128, .f32⟩
  | .hbm, ⟨57, _⟩ => ⟨S4x64x25x128x128, .f32⟩
  | .hbm, ⟨58, _⟩ => ⟨S4x8x8x25x128x128, .f32⟩
  | .hbm, ⟨59, _⟩ => ⟨S4x1x8x25x128x128, .f32⟩
  | .hbm, ⟨60, _⟩ => ⟨S4x8x8x25x128x128, .f32⟩
  | .hbm, ⟨61, _⟩ => ⟨S4x8x8x25x128x128, .f32⟩
  | .hbm, ⟨62, _⟩ => ⟨S_, .f32⟩
  | .hbm, ⟨63, _⟩ => ⟨S4x8x8x128x128, .f32⟩
  | .hbm, ⟨64, _⟩ => ⟨S4x64x128x128, .f32⟩
  | _, _ => ⟨S4x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_cst : Ref sig .tc := ⟨.hbm, 62, rfl⟩
abbrev main_v58 : Ref sig .tc := ⟨.hbm, 63, rfl⟩
abbrev main_v59 : Ref sig .tc := ⟨.hbm, 64, rfl⟩

abbrev nD : Nat := 1
abbrev τ : Topo := Topo.v7x

variable {F : FTy → Type} [FloatOps F]

class Facts₀ : Prop where
  pads_S4x64x128x128_S4x64x132x132_000_000_220_220 : S4x64x128x128.Pads (![0, 0, 2, 2] : Fin 4 → Nat) ![0, 0, 2, 2] ![0, 0, 0, 0] S4x64x132x132
  h_S_ : 0 < S_.numel
  slices_S4x64x132x132_S4x64x128x128_0_0_0_0 : S4x64x132x132.Slices ![0, 0, 0, 0] S4x64x128x128
  slices_S4x64x132x132_S4x64x128x128_0_0_0_1 : S4x64x132x132.Slices ![0, 0, 0, 1] S4x64x128x128
  slices_S4x64x132x132_S4x64x128x128_0_0_0_2 : S4x64x132x132.Slices ![0, 0, 0, 2] S4x64x128x128
  slices_S4x64x132x132_S4x64x128x128_0_0_0_3 : S4x64x132x132.Slices ![0, 0, 0, 3] S4x64x128x128
  slices_S4x64x132x132_S4x64x128x128_0_0_0_4 : S4x64x132x132.Slices ![0, 0, 0, 4] S4x64x128x128
  slices_S4x64x132x132_S4x64x128x128_0_0_1_0 : S4x64x132x132.Slices ![0, 0, 1, 0] S4x64x128x128
  slices_S4x64x132x132_S4x64x128x128_0_0_1_1 : S4x64x132x132.Slices ![0, 0, 1, 1] S4x64x128x128
  slices_S4x64x132x132_S4x64x128x128_0_0_1_2 : S4x64x132x132.Slices ![0, 0, 1, 2] S4x64x128x128
  slices_S4x64x132x132_S4x64x128x128_0_0_1_3 : S4x64x132x132.Slices ![0, 0, 1, 3] S4x64x128x128
  slices_S4x64x132x132_S4x64x128x128_0_0_1_4 : S4x64x132x132.Slices ![0, 0, 1, 4] S4x64x128x128
  slices_S4x64x132x132_S4x64x128x128_0_0_2_0 : S4x64x132x132.Slices ![0, 0, 2, 0] S4x64x128x128
  slices_S4x64x132x132_S4x64x128x128_0_0_2_1 : S4x64x132x132.Slices ![0, 0, 2, 1] S4x64x128x128
  slices_S4x64x132x132_S4x64x128x128_0_0_2_2 : S4x64x132x132.Slices ![0, 0, 2, 2] S4x64x128x128
  slices_S4x64x132x132_S4x64x128x128_0_0_2_3 : S4x64x132x132.Slices ![0, 0, 2, 3] S4x64x128x128
  slices_S4x64x132x132_S4x64x128x128_0_0_2_4 : S4x64x132x132.Slices ![0, 0, 2, 4] S4x64x128x128
  slices_S4x64x132x132_S4x64x128x128_0_0_3_0 : S4x64x132x132.Slices ![0, 0, 3, 0] S4x64x128x128
  slices_S4x64x132x132_S4x64x128x128_0_0_3_1 : S4x64x132x132.Slices ![0, 0, 3, 1] S4x64x128x128
  slices_S4x64x132x132_S4x64x128x128_0_0_3_2 : S4x64x132x132.Slices ![0, 0, 3, 2] S4x64x128x128
  slices_S4x64x132x132_S4x64x128x128_0_0_3_3 : S4x64x132x132.Slices ![0, 0, 3, 3] S4x64x128x128
  slices_S4x64x132x132_S4x64x128x128_0_0_3_4 : S4x64x132x132.Slices ![0, 0, 3, 4] S4x64x128x128
  slices_S4x64x132x132_S4x64x128x128_0_0_4_0 : S4x64x132x132.Slices ![0, 0, 4, 0] S4x64x128x128
  slices_S4x64x132x132_S4x64x128x128_0_0_4_1 : S4x64x132x132.Slices ![0, 0, 4, 1] S4x64x128x128
  slices_S4x64x132x132_S4x64x128x128_0_0_4_2 : S4x64x132x132.Slices ![0, 0, 4, 2] S4x64x128x128
  slices_S4x64x132x132_S4x64x128x128_0_0_4_3 : S4x64x132x132.Slices ![0, 0, 4, 3] S4x64x128x128
  slices_S4x64x132x132_S4x64x128x128_0_0_4_4 : S4x64x132x132.Slices ![0, 0, 4, 4] S4x64x128x128
  bcast_S4x64x128x128_S4x64x1x128x128_0_1_3_4 : S4x64x128x128.BroadcastsInDim S4x64x1x128x128 (![0, 1, 3, 4] : Fin 4 → Fin S4x64x1x128x128.rank)
  concatenates_S4x64x1x128x128_S4x64x1x128x128_S4x64x1x128x128_S4x64x1x128x128_S4x64x1x128x128_S4x64x1x128x128_S4x64x1x128x128_S4x64x1x128x128_S4x64x1x128x128_S4x64x1x128x128_S4x64x1x128x128_S4x64x1x128x128_S4x64x1x128x128_S4x64x1x128x128_S4x64x1x128x128_S4x64x1x128x128_S4x64x16x128x128_d2 : Shape.Concatenates [S4x64x1x128x128, S4x64x1x128x128, S4x64x1x128x128, S4x64x1x128x128, S4x64x1x128x128, S4x64x1x128x128, S4x64x1x128x128, S4x64x1x128x128, S4x64x1x128x128, S4x64x1x128x128, S4x64x1x128x128, S4x64x1x128x128, S4x64x1x128x128, S4x64x1x128x128, S4x64x1x128x128, S4x64x1x128x128] S4x64x16x128x128 2
  concatenates_S4x64x1x128x128_S4x64x1x128x128_S4x64x1x128x128_S4x64x1x128x128_S4x64x1x128x128_S4x64x1x128x128_S4x64x1x128x128_S4x64x1x128x128_S4x64x1x128x128_S4x64x9x128x128_d2 : Shape.Concatenates [S4x64x1x128x128, S4x64x1x128x128, S4x64x1x128x128, S4x64x1x128x128, S4x64x1x128x128, S4x64x1x128x128, S4x64x1x128x128, S4x64x1x128x128, S4x64x1x128x128] S4x64x9x128x128 2
  concatenates_S4x64x16x128x128_S4x64x9x128x128_S4x64x25x128x128_d2 : Shape.Concatenates [S4x64x16x128x128, S4x64x9x128x128] S4x64x25x128x128 2
  shapeCasts_S4x64x25x128x128_S4x8x8x25x128x128 : S4x64x25x128x128.ShapeCasts S4x8x8x25x128x128
  shapeCasts_S4x8x25x16384_S4x1x8x25x128x128 : S4x8x25x16384.ShapeCasts S4x1x8x25x128x128
  bcast_S4x1x8x25x128x128_S4x8x8x25x128x128_0_1_2_3_4_5 : S4x1x8x25x128x128.BroadcastsInDim S4x8x8x25x128x128 (![0, 1, 2, 3, 4, 5] : Fin 6 → Fin S4x8x8x25x128x128.rank)
  reducesTo_S4x8x8x25x128x128_S4x8x8x128x128_d3 : S4x8x8x25x128x128.ReducesTo [3] S4x8x8x128x128
  shapeCasts_S4x8x8x128x128_S4x64x128x128 : S4x8x8x128x128.ShapeCasts S4x64x128x128

variable [Facts₀]

class Facts : Prop extends Facts₀ where

variable [Facts]
-- ==== Proof.Spec.lean ====
/-
  The function both programs compute: a 5×5 locally weighted sum with per-pixel weights.

  For an image batch padded by two zero rows and columns on every side, `xp : [4, 64, 132, 132]`, and per-pixel
  weights `wt : [4, 8, 25, 128·128]` (eight weight channels, shared by the eight channel groups, the 25 taps of
  the window in row-major order, the output pixels flattened row-major), the result at `(n, ch, h, w)` is
      Σ_{k < 25}  xp[n, ch, h + k / 5, w + k % 5] · wt[n, ch % 8, k, 128·h + w]
  over the extended reals. Channel `ch = 8·g + c` reads weight channel `c`: the groups `g` share the weights.
  `convBlock` is the same sum for ONE image `n`, with the weights' pixel axis unflattened: what one grid point of
  the kernel computes from its two blocks.

  The sum is also stated in the order in which a tap-by-tap accumulation from zero forms it
  (`sum_taps`): only the order differs, and addition of extended reals is associative and commutative.
-/
import Idealize.ShloMosaic.PureOps.Ideal
import Idealize.ShloMosaic.Lib.ValueIdx

noncomputable section

open Idealize.ShloMosaic Idealize.ShloMosaic.ValueIdx
open scoped BigOperators

namespace Cert.LocalConv

/-- The padded images, the per-pixel weights, the result. -/
abbrev SX : Shape := ⟨4, ![4, 64, 132, 132]⟩
abbrev SW : Shape := ⟨4, ![4, 8, 25, 16384]⟩
abbrev SO : Shape := ⟨4, ![4, 64, 128, 128]⟩

/-- One image's padded channels, its weights with the pixel axis as rows and columns, its result. -/
abbrev BX : Shape := ⟨4, ![1, 64, 132, 132]⟩
abbrev BW : Shape := ⟨5, ![1, 8, 25, 128, 128]⟩
abbrev BO : Shape := ⟨4, ![1, 64, 128, 128]⟩

/-- Row and column, in the padded image, of the pixel that tap `k` of the window at output pixel `(h, w)` reads. -/
def tapRow (h : Fin 128) (k : Fin 25) : Fin 132 := ⟨h.val + k.val / 5, by have := h.isLt; have := k.isLt; omega⟩
def tapCol (w : Fin 128) (k : Fin 25) : Fin 132 := ⟨w.val + k.val % 5, by have := w.isLt; omega⟩
/-- The weight channel of channel `ch`: the eight groups of eight channels share the eight weight channels. -/
def wch (ch : Fin 64) : Fin 8 := ⟨ch.val % 8, Nat.mod_lt _ (by decide)⟩
/-- Output pixel `(h, w)` on the weights' flattened pixel axis. -/
def pix (h w : Fin 128) : Fin 16384 := ⟨128 * h.val + w.val, by have := h.isLt; have := w.isLt; omega⟩

/-- One tap's product, over the whole batch. -/
def tap (xp : FVec Ideal SX .f32) (wt : FVec Ideal SW .f32) (n : Fin 4) (ch : Fin 64) (h w : Fin 128) (k : Fin 25) : EReal :=
  xp (ix4 n ch (tapRow h k) (tapCol w k)) * wt (ix4 n (wch ch) k (pix h w))

/-- THE RESULT, index by index: the 25 taps' products summed. -/
def conv (xp : FVec Ideal SX .f32) (wt : FVec Ideal SW .f32) : FVec Ideal SO .f32 :=
  fun j => ∑ k : Fin 25, tap xp wt (j 0) (j 1) (j 2) (j 3) k

theorem conv_apply (xp : FVec Ideal SX .f32) (wt : FVec Ideal SW .f32) (n : Fin 4) (ch : Fin 64) (h w : Fin 128) :
    conv xp wt (ix4 n ch h w) = ∑ k : Fin 25, tap xp wt n ch h w k := rfl

/-- One tap's product, for one image (a block of the padded batch and a block of the unflattened weights). -/
def tapB (x : FVec Ideal BX .bf16) (wt : FVec Ideal BW .bf16) (ch : Fin 64) (h w : Fin 128) (k : Fin 25) : EReal :=
  x (ix4 0 ch (tapRow h k) (tapCol w k)) * wt (ix5 0 (wch ch) k h w)

/-- One image's result. -/
def convBlock (x : FVec Ideal BX .bf16) (wt : FVec Ideal BW .bf16) : FVec Ideal BO .f32 :=
  fun j => ∑ k : Fin 25, tapB x wt (j 1) (j 2) (j 3) k

theorem convBlock_apply (x : FVec Ideal BX .bf16) (wt : FVec Ideal BW .bf16) (z : Fin 1) (ch : Fin 64) (h w : Fin 128) :
    convBlock x wt (ix4 z ch h w) = ∑ k : Fin 25, tapB x wt ch h w k := rfl

/-- A sum over the 25 taps, written out from zero in the taps' order (the order of an accumulation tap by tap). -/
theorem sum_taps (f : Fin 25 → EReal) :
    ∑ k : Fin 25, f k
      = 0 + f 0 + f 1 + f 2 + f 3 + f 4 + f 5 + f 6 + f 7 + f 8 + f 9 + f 10 + f 11 + f 12 + f 13 + f 14 + f 15
          + f 16 + f 17 + f 18 + f 19 + f 20 + f 21 + f 22 + f 23 + f 24 := by
  simp only [Fin.sum_univ_castSucc, Fin.sum_univ_zero]
  rfl

end Cert.LocalConv

end
-- ==== Proof.Taps.lean ====
/-
  The kernel body's arithmetic, tap by tap, at an index.

  Each of the 25 taps loads an [1, 8, 128, 128] patch of the padded image (eight channels of one group, shifted by
  the tap's row and column) and an [1, 8, 1, 128, 128] slab of the weights (the eight weight channels of that tap),
  drops their unit axes, multiplies them entry by entry and adds the product to the running sum, which starts at
  zero. Read at a channel `a` of the group and a pixel `(h, x)`, each stage of the body is the running sum so far plus
  the products `patch[0, a, h, x] · slab[0, a, 0, h, x]` of its taps: changes of float format are the identity on the
  extended reals, and a shape cast that drops unit axes reads the same entry.
-/
import proofs.«109893_j26439818674593_2_alg».proof.Proof.Gen.KernelIdeal.Skeleton
import proofs.«109893_j26439818674593_2_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.LocalConv.Taps

open Cert.KernelIdeal Cert.KernelIdeal.Gen

/-- One tap's product at channel `a` of the group and pixel `(h, x)`: the patch's entry times the slab's. -/
def prod (p : Vec Ideal S1x8x128x128 .bf16) (w : Vec Ideal S1x8x1x128x128 .bf16) (a : Fin 8) (h x : Fin 128) : EReal :=
  p (ix4 0 a h x) * w (ix5 0 a 0 h x)

/-- A patch with its leading unit axis dropped reads the same entry. -/
theorem cast_patch (p : Vec Ideal S1x8x128x128 .bf16) (hc : S1x8x128x128.ShapeCasts S8x128x128) (a : Fin 8) (h x : Fin 128) :
    shapeCast S8x128x128 p hc (ix3 a h x) = p (ix4 0 a h x) :=
  shapeCast_1abc_abc_apply p hc a h x

/-- A weight slab with its two unit axes dropped reads the same entry. -/
theorem cast_slab (w : Vec Ideal S1x8x1x128x128 .bf16) (hc : S1x8x1x128x128.ShapeCasts S8x128x128) (a : Fin 8) (h x : Fin 128) :
    shapeCast S8x128x128 w hc (ix3 a h x) = w (ix5 0 a 0 h x) := by
  unfold shapeCast
  exact congrArg w (reshapeEquiv_ix3_1a1bc _ a h x)

/-- The zero the running sum starts from. -/
theorem zero_word : Scalar.ofBits (F := Ideal) .f32 0x00000000#32 = (0 : EReal) := Ideal.ofBits_zero_f32

/-- Taps 0, 1, 2, from zero. -/
theorem pay2_apply (v5 : Vec Ideal S1x8x128x128 .bf16) (v8 : Vec Ideal S1x8x1x128x128 .bf16) (v14 : Vec Ideal S1x8x128x128 .bf16) (v17 : Vec Ideal S1x8x1x128x128 .bf16) (v23 : Vec Ideal S1x8x128x128 .bf16) (v26 : Vec Ideal S1x8x1x128x128 .bf16) (a : Fin 8) (h x : Fin 128) :
    k0_pay2 (F := Ideal) v5 v8 v14 v17 v23 v26 (ix3 a h x)
      = 0 + prod v5 v8 a h x + prod v14 v17 a h x + prod v23 v26 a h x := by
  unfold k0_pay2 prod
  simp only [addf_apply, mulf_apply, extf_apply, broadcast_apply, zero_word]
  rw [cast_patch v5, cast_slab v8, cast_patch v14, cast_slab v17, cast_patch v23, cast_slab v26]

/-- Three more taps on a running sum (taps 3–5, 10–12, 17–19). -/
theorem pay3_apply (v30 : FVec Ideal S8x128x128 .f32) (v32 : Vec Ideal S1x8x128x128 .bf16) (v35 : Vec Ideal S1x8x1x128x128 .bf16) (v41 : Vec Ideal S1x8x128x128 .bf16) (v44 : Vec Ideal S1x8x1x128x128 .bf16) (v50 : Vec Ideal S1x8x128x128 .bf16) (v53 : Vec Ideal S1x8x1x128x128 .bf16) (a : Fin 8) (h x : Fin 128) :
    k0_pay3 (F := Ideal) v30 v32 v35 v41 v44 v50 v53 (ix3 a h x)
      = v30 (ix3 a h x) + prod v32 v35 a h x + prod v41 v44 a h x + prod v50 v53 a h x := by
  unfold k0_pay3 prod
  simp only [addf_apply, mulf_apply, extf_apply]
  rw [cast_patch v32, cast_slab v35, cast_patch v41, cast_slab v44, cast_patch v50, cast_slab v53]

theorem pay6_apply (v93 : FVec Ideal S8x128x128 .f32) (v95 : Vec Ideal S1x8x128x128 .bf16) (v98 : Vec Ideal S1x8x1x128x128 .bf16) (v104 : Vec Ideal S1x8x128x128 .bf16) (v107 : Vec Ideal S1x8x1x128x128 .bf16) (v113 : Vec Ideal S1x8x128x128 .bf16) (v116 : Vec Ideal S1x8x1x128x128 .bf16) (a : Fin 8) (h x : Fin 128) :
    k0_pay6 (F := Ideal) v93 v95 v98 v104 v107 v113 v116 (ix3 a h x)
      = v93 (ix3 a h x) + prod v95 v98 a h x + prod v104 v107 a h x + prod v113 v116 a h x := by
  unfold k0_pay6 prod
  simp only [addf_apply, mulf_apply, extf_apply]
  rw [cast_patch v95, cast_slab v98, cast_patch v104, cast_slab v107, cast_patch v113, cast_slab v116]

theorem pay9_apply (v156 : FVec Ideal S8x128x128 .f32) (v158 : Vec Ideal S1x8x128x128 .bf16) (v161 : Vec Ideal S1x8x1x128x128 .bf16) (v167 : Vec Ideal S1x8x128x128 .bf16) (v170 : Vec Ideal S1x8x1x128x128 .bf16) (v176 : Vec Ideal S1x8x128x128 .bf16) (v179 : Vec Ideal S1x8x1x128x128 .bf16) (a : Fin 8) (h x : Fin 128) :
    k0_pay9 (F := Ideal) v156 v158 v161 v167 v170 v176 v179 (ix3 a h x)
      = v156 (ix3 a h x) + prod v158 v161 a h x + prod v167 v170 a h x + prod v176 v179 a h x := by
  unfold k0_pay9 prod
  simp only [addf_apply, mulf_apply, extf_apply]
  rw [cast_patch v158, cast_slab v161, cast_patch v167, cast_slab v170, cast_patch v176, cast_slab v179]

/-- A patch alone, its unit axis dropped and its format widened (taps 6, 13, 20), or only dropped (tap 24). -/
theorem pay4_apply (v59 : Vec Ideal S1x8x128x128 .bf16) (a : Fin 8) (h x : Fin 128) :
    k0_pay4 (F := Ideal) v59 (ix3 a h x) = v59 (ix4 0 a h x) := by
  unfold k0_pay4
  exact cast_patch v59 _ a h x

theorem pay7_apply (v122 : Vec Ideal S1x8x128x128 .bf16) (a : Fin 8) (h x : Fin 128) :
    k0_pay7 (F := Ideal) v122 (ix3 a h x) = v122 (ix4 0 a h x) := by
  unfold k0_pay7
  exact cast_patch v122 _ a h x

theorem pay10_apply (v185 : Vec Ideal S1x8x128x128 .bf16) (a : Fin 8) (h x : Fin 128) :
    k0_pay10 (F := Ideal) v185 (ix3 a h x) = v185 (ix4 0 a h x) := by
  unfold k0_pay10
  exact cast_patch v185 _ a h x

theorem pay13_apply (v221 : Vec Ideal S1x8x128x128 .bf16) (a : Fin 8) (h x : Fin 128) :
    k0_pay13 (F := Ideal) v221 (ix3 a h x) = v221 (ix4 0 a h x) := by
  unfold k0_pay13
  exact cast_patch v221 _ a h x

/-- A weight slab alone, its unit axes dropped (tap 20). -/
theorem pay11_apply (v188 : Vec Ideal S1x8x1x128x128 .bf16) (a : Fin 8) (h x : Fin 128) :
    k0_pay11 (F := Ideal) v188 (ix3 a h x) = v188 (ix5 0 a 0 h x) := by
  unfold k0_pay11
  exact cast_slab v188 _ a h x

/-- A tap whose patch was prepared before, then three more (taps 6–9, 13–16). -/
theorem pay5_apply (v57 : FVec Ideal S8x128x128 .f32) (v61 : FVec Ideal S8x128x128 .f32) (v62 : Vec Ideal S1x8x1x128x128 .bf16) (v68 : Vec Ideal S1x8x128x128 .bf16) (v71 : Vec Ideal S1x8x1x128x128 .bf16) (v77 : Vec Ideal S1x8x128x128 .bf16) (v80 : Vec Ideal S1x8x1x128x128 .bf16) (v86 : Vec Ideal S1x8x128x128 .bf16) (v89 : Vec Ideal S1x8x1x128x128 .bf16) (a : Fin 8) (h x : Fin 128) :
    k0_pay5 (F := Ideal) v57 v61 v62 v68 v71 v77 v80 v86 v89 (ix3 a h x)
      = v57 (ix3 a h x) + v61 (ix3 a h x) * v62 (ix5 0 a 0 h x) + prod v68 v71 a h x + prod v77 v80 a h x + prod v86 v89 a h x := by
  unfold k0_pay5 prod
  simp only [addf_apply, mulf_apply, extf_apply]
  rw [cast_slab v62, cast_patch v68, cast_slab v71, cast_patch v77, cast_slab v80, cast_patch v86, cast_slab v89]

theorem pay8_apply (v120 : FVec Ideal S8x128x128 .f32) (v124 : FVec Ideal S8x128x128 .f32) (v125 : Vec Ideal S1x8x1x128x128 .bf16) (v131 : Vec Ideal S1x8x128x128 .bf16) (v134 : Vec Ideal S1x8x1x128x128 .bf16) (v140 : Vec Ideal S1x8x128x128 .bf16) (v143 : Vec Ideal S1x8x1x128x128 .bf16) (v149 : Vec Ideal S1x8x128x128 .bf16) (v152 : Vec Ideal S1x8x1x128x128 .bf16) (a : Fin 8) (h x : Fin 128) :
    k0_pay8 (F := Ideal) v120 v124 v125 v131 v134 v140 v143 v149 v152 (ix3 a h x)
      = v120 (ix3 a h x) + v124 (ix3 a h x) * v125 (ix5 0 a 0 h x) + prod v131 v134 a h x + prod v140 v143 a h x + prod v149 v152 a h x := by
  unfold k0_pay8 prod
  simp only [addf_apply, mulf_apply, extf_apply]
  rw [cast_slab v125, cast_patch v131, cast_slab v134, cast_patch v140, cast_slab v143, cast_patch v149, cast_slab v152]

/-- Tap 20, patch and slab both prepared before, then taps 21–23. -/
theorem pay12_apply (v183 : FVec Ideal S8x128x128 .f32) (v187 : FVec Ideal S8x128x128 .f32) (v189 : FVec Ideal S8x128x128 .bf16) (v194 : Vec Ideal S1x8x128x128 .bf16) (v197 : Vec Ideal S1x8x1x128x128 .bf16) (v203 : Vec Ideal S1x8x128x128 .bf16) (v206 : Vec Ideal S1x8x1x128x128 .bf16) (v212 : Vec Ideal S1x8x128x128 .bf16) (v215 : Vec Ideal S1x8x1x128x128 .bf16) (a : Fin 8) (h x : Fin 128) :
    k0_pay12 (F := Ideal) v183 v187 v189 v194 v197 v203 v206 v212 v215 (ix3 a h x)
      = v183 (ix3 a h x) + v187 (ix3 a h x) * v189 (ix3 a h x) + prod v194 v197 a h x + prod v203 v206 a h x + prod v212 v215 a h x := by
  unfold k0_pay12 prod
  simp only [addf_apply, mulf_apply, extf_apply]
  rw [cast_patch v194, cast_slab v197, cast_patch v203, cast_slab v206, cast_patch v212, cast_slab v215]

/-- Tap 24 and the stored value: the finished sum with a unit axis put in front. -/
theorem pay1_apply (v219 : FVec Ideal S8x128x128 .f32) (v222 : FVec Ideal S8x128x128 .bf16) (v224 : Vec Ideal S1x8x1x128x128 .bf16) (z : Fin 1) (a : Fin 8) (h x : Fin 128) :
    k0_pay1 (F := Ideal) v219 v222 v224 (ix4 z a h x)
      = v219 (ix3 a h x) + v222 (ix3 a h x) * v224 (ix5 0 a 0 h x) := by
  unfold k0_pay1
  refine (shapeCast_abc_1abc_apply _ _ z a h x).trans ?_
  simp only [addf_apply, mulf_apply, extf_apply]
  rw [cast_slab v224]

/-- ONE TRIP'S STORED VALUE at channel `a` of the group and pixel `(h, x)`: the 25 taps' products added to zero in
    the taps' order. -/
theorem stored_apply (p0 p1 p2 p3 p4 p5 p6 p7 p8 p9 p10 p11 p12 p13 p14 p15 p16 p17 p18 p19 p20 p21 p22 p23 p24 : Vec Ideal S1x8x128x128 .bf16)
    (w0 w1 w2 w3 w4 w5 w6 w7 w8 w9 w10 w11 w12 w13 w14 w15 w16 w17 w18 w19 w20 w21 w22 w23 w24 : Vec Ideal S1x8x1x128x128 .bf16) (z : Fin 1) (a : Fin 8) (h x : Fin 128) :
    k0_pay1 (F := Ideal)
        (k0_pay12
          (k0_pay9
            (k0_pay8
              (k0_pay6
                (k0_pay5
                  (k0_pay3 (k0_pay2 p0 w0 p1 w1 p2 w2) p3 w3 p4 w4 p5 w5)
                  (k0_pay4 p6) w6 p7 w7 p8 w8 p9 w9)
                p10 w10 p11 w11 p12 w12)
              (k0_pay7 p13) w13 p14 w14 p15 w15 p16 w16)
            p17 w17 p18 w18 p19 w19)
          (k0_pay10 p20) (k0_pay11 w20) p21 w21 p22 w22 p23 w23)
        (k0_pay13 p24) w24 (ix4 z a h x)
      = 0 + prod p0 w0 a h x + prod p1 w1 a h x + prod p2 w2 a h x + prod p3 w3 a h x + prod p4 w4 a h x + prod p5 w5 a h x + prod p6 w6 a h x + prod p7 w7 a h x + prod p8 w8 a h x + prod p9 w9 a h x + prod p10 w10 a h x + prod p11 w11 a h x + prod p12 w12 a h x + prod p13 w13 a h x + prod p14 w14 a h x + prod p15 w15 a h x + prod p16 w16 a h x + prod p17 w17 a h x + prod p18 w18 a h x + prod p19 w19 a h x + prod p20 w20 a h x + prod p21 w21 a h x + prod p22 w22 a h x + prod p23 w23 a h x + prod p24 w24 a h x := by
  rw [pay1_apply, pay12_apply, pay9_apply, pay8_apply, pay6_apply, pay5_apply, pay3_apply, pay2_apply, pay4_apply,
    pay7_apply, pay10_apply, pay11_apply, pay13_apply]
  rfl

end Cert.LocalConv.Taps

end
-- ==== Proof.BodyValue.lean ====
/-
  What one grid point leaves in the result's staging buffer: one image's locally weighted sum of its two blocks.

  The body is a loop over the eight channel groups. Trip `k` loads, for each of the 25 taps `j`, the patch of
  channels `8k … 8k+7` shifted by `(j / 5, j % 5)` and the tap's weight slab, accumulates the 25 products from zero
  (Taps.lean), and stores the sum as channels `8k … 8k+7` of the result. So every store's value is, at each of its
  entries, the block function `convBlock` at the entry's place in the buffer; the eight stores tile the buffer;
  hence the buffer read back is `convBlock` everywhere.
-/
import proofs.«109893_j26439818674593_2_alg».proof.Proof.Gen.KernelIdeal.Frame
import proofs.«109893_j26439818674593_2_alg».proof.Proof.Taps

noncomputable section

open Idealize.ShloMosaic Idealize.ShloMosaic.TcCoe Idealize.SL.Sem Idealize.ShloMosaic.ValueIdx

namespace Cert.LocalConv.Body

open Cert.KernelIdeal Cert.KernelIdeal.Gen Cert.LocalConv Cert.LocalConv.Taps

/-- The channel `8k + a`: channel `a` of group `k`. -/
def chan (k : Fin k0_t1_loop.trips) (a : Fin 8) : Fin 64 :=
  ⟨8 * k.val + a.val, by have := Nat.lt_of_lt_of_le k.isLt k0_t1_abs.2.1; have := a.isLt; omega⟩

/-- Tap `j = 5r + s` of group `k`: the product of the patch loaded at offset `(0, 8k, r, s)` and of the slab loaded at
    tap `j`, at channel `a` of the group and pixel `(h, x)`, is the block function's tap `j` at channel `8k + a`. -/
theorem prod_loads (arg1 : Memref sig .tc .vmem S1x64x132x132 .bf16) (harg1 : arg1.IsWhole)
    (arg2 : Memref sig .tc .vmem S1x8x25x128x128 .bf16) (harg2 : arg2.IsWhole)
    (x0 : Vec Ideal S1x64x132x132 .bf16) (x1 : Vec Ideal S1x8x25x128x128 .bf16)
    (k : Fin k0_t1_loop.trips) (j : Fin 25) (r s : ℕ) (hj : j.val = 5 * r + s) (hs : s < 5)
    (off : Fin 4 → ℕ) (hoff : off = ![0, 8 * k.val, r, s]) (inb : ∀ d, off d + S1x8x128x128.size d ≤ S1x64x132x132.size d)
    (off' : Fin 5 → ℕ) (hoff' : off' = ![0, 0, j.val, 0, 0]) (inb' : ∀ d, off' d + S1x8x1x128x128.size d ≤ S1x8x25x128x128.size d)
    (a : Fin 8) (h x : Fin 128) :
    prod (View.readAt (Elt Ideal) arg1.view (Rect.unit (s := S1x64x132x132) off S1x8x128x128.size inb).toLoadRect (harg1.unread x0))
        (View.readAt (Elt Ideal) arg2.view (Rect.unit (s := S1x8x25x128x128) off' S1x8x1x128x128.size inb').toLoadRect (harg2.unread x1))
        a h x
      = tapB x0 x1 (chan k a) h x j := by
  subst hoff hoff'
  have e1 : arg1.view.read (Elt Ideal) (harg1.unread x0) = x0 := harg1.read_unread x0
  have e2 : arg2.view.read (Elt Ideal) (harg2.unread x1) = x1 := harg2.read_unread x1
  unfold prod tapB
  rw [View.readAt_eq_ld, View.readAt_eq_ld, e1, e2]
  have hk : k.val < 8 := Nat.lt_of_lt_of_le k.isLt k0_t1_abs.2.1
  have ha := a.isLt
  refine congrArg₂ (· * ·) (congrArg x0 (funext fun d => Fin.ext ?_)) (congrArg x1 (funext fun d => Fin.ext ?_))
  · match d with
    | ⟨0, _⟩ => rfl
    | ⟨1, _⟩ => show 8 * k.val + 1 * a.val = 8 * k.val + a.val; omega
    | ⟨2, _⟩ => show r + 1 * h.val = h.val + j.val / 5; omega
    | ⟨3, _⟩ => show s + 1 * x.val = x.val + j.val % 5; omega
  · match d with
    | ⟨0, _⟩ => rfl
    | ⟨1, _⟩ => show 0 + 1 * a.val = (8 * k.val + a.val) % 8; omega
    | ⟨2, _⟩ => show j.val + 1 * 0 = j.val; omega
    | ⟨3, _⟩ => show 0 + 1 * h.val = h.val; omega
    | ⟨4, _⟩ => show 0 + 1 * x.val = x.val; omega

/-- Where trip `k`'s store puts entry `(z, a, h, x)` of its value: channel `8k + a`, pixel `(h, x)`. -/
theorem emb_store (k : Fin k0_t1_loop.trips) (off : Fin 4 → ℕ) (hoff : off = ![0, 8 * k.val, 0, 0])
    (inb : ∀ d, off d + S1x8x128x128.size d ≤ S1x64x128x128.size d) (z : Fin 1) (a : Fin 8) (h x : Fin 128) :
    (Rect.unit (s := S1x64x128x128) off S1x8x128x128.size inb).emb (ix4 z a h x) = ix4 0 (chan k a) h x := by
  subst hoff
  have hz : z.val = 0 := by omega
  refine funext fun d => Fin.ext ?_
  match d with
  | ⟨0, _⟩ => show 0 + 1 * z.val = 0; omega
  | ⟨1, _⟩ => show 8 * k.val + 1 * a.val = 8 * k.val + a.val; omega
  | ⟨2, _⟩ => show 0 + 1 * h.val = h.val; omega
  | ⟨3, _⟩ => show 0 + 1 * x.val = x.val; omega

/-- TRIP `k` STORES ONE PIECE — at channels `8k … 8k+7` — and the piece's value is the block function there. -/
theorem trip_piece (c : Dev nD) (i : grid0.Coords) (arg1 : Memref sig .tc .vmem S1x64x132x132 .bf16) (harg1 : arg1.IsWhole)
    (arg2 : Memref sig .tc .vmem S1x8x25x128x128 .bf16) (harg2 : arg2.IsWhole)
    (arg3 : Memref sig .tc .vmem S1x64x128x128 .f32) (harg3 : arg3.IsWhole)
    (x0 : Vec Ideal S1x64x132x132 .bf16) (x1 : Vec Ideal S1x8x25x128x128 .bf16) (k : Fin k0_t1_loop.trips) :
    ∀ p ∈ tripL_k0_t1 (F := Ideal) Variants.none c none i arg1 harg1 arg2 harg2 arg3 harg3 (harg1.unread x0) (harg2.unread x1) k,
      ∀ y : p.1.shape.Idx, p.2 y = convBlock x0 x1 (p.1.emb y) := by
  unfold tripL_k0_t1 trip_k0_t1
  dsimp only
  sl_unfold_run_names
  intro p hp
  obtain rfl := List.mem_singleton.mp hp
  intro y
  obtain ⟨z, a, h, x, rfl⟩ : ∃ (z : Fin 1) (a : Fin 8) (h x : Fin 128), y = ix4 z a h x := ⟨y 0, y 1, y 2, y 3, eq_ix4 y⟩
  refine (stored_apply _ _ _ _ _ _ _ _ _ _ _ _ _ _ _ _ _ _ _ _ _ _ _ _ _ _ _ _ _ _ _ _ _ _ _ _ _ _ _ _ _ _ _ _ _ _ _ _ _ _ z a h x).trans ?_
  rw [emb_store k _ (k0_off26_eq k) _ z a h x, convBlock_apply, sum_taps]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (prod_loads arg1 harg1 arg2 harg2 x0 x1 k 0 0 0 rfl (by decide) _ (k0_off1_eq k) _ _ rfl _ a h x))
      (prod_loads arg1 harg1 arg2 harg2 x0 x1 k 1 0 1 rfl (by decide) _ (k0_off2_eq k) _ _ rfl _ a h x))
      (prod_loads arg1 harg1 arg2 harg2 x0 x1 k 2 0 2 rfl (by decide) _ (k0_off3_eq k) _ _ rfl _ a h x))
      (prod_loads arg1 harg1 arg2 harg2 x0 x1 k 3 0 3 rfl (by decide) _ (k0_off4_eq k) _ _ rfl _ a h x))
      (prod_loads arg1 harg1 arg2 harg2 x0 x1 k 4 0 4 rfl (by decide) _ (k0_off5_eq k) _ _ rfl _ a h x))
      (prod_loads arg1 harg1 arg2 harg2 x0 x1 k 5 1 0 rfl (by decide) _ (k0_off6_eq k) _ _ rfl _ a h x))
      (prod_loads arg1 harg1 arg2 harg2 x0 x1 k 6 1 1 rfl (by decide) _ (k0_off7_eq k) _ _ rfl _ a h x))
      (prod_loads arg1 harg1 arg2 harg2 x0 x1 k 7 1 2 rfl (by decide) _ (k0_off8_eq k) _ _ rfl _ a h x))
      (prod_loads arg1 harg1 arg2 harg2 x0 x1 k 8 1 3 rfl (by decide) _ (k0_off9_eq k) _ _ rfl _ a h x))
      (prod_loads arg1 harg1 arg2 harg2 x0 x1 k 9 1 4 rfl (by decide) _ (k0_off10_eq k) _ _ rfl _ a h x))
      (prod_loads arg1 harg1 arg2 harg2 x0 x1 k 10 2 0 rfl (by decide) _ (k0_off11_eq k) _ _ rfl _ a h x))
      (prod_loads arg1 harg1 arg2 harg2 x0 x1 k 11 2 1 rfl (by decide) _ (k0_off12_eq k) _ _ rfl _ a h x))
      (prod_loads arg1 harg1 arg2 harg2 x0 x1 k 12 2 2 rfl (by decide) _ (k0_off13_eq k) _ _ rfl _ a h x))
      (prod_loads arg1 harg1 arg2 harg2 x0 x1 k 13 2 3 rfl (by decide) _ (k0_off14_eq k) _ _ rfl _ a h x))
      (prod_loads arg1 harg1 arg2 harg2 x0 x1 k 14 2 4 rfl (by decide) _ (k0_off15_eq k) _ _ rfl _ a h x))
      (prod_loads arg1 harg1 arg2 harg2 x0 x1 k 15 3 0 rfl (by decide) _ (k0_off16_eq k) _ _ rfl _ a h x))
      (prod_loads arg1 harg1 arg2 harg2 x0 x1 k 16 3 1 rfl (by decide) _ (k0_off17_eq k) _ _ rfl _ a h x))
      (prod_loads arg1 harg1 arg2 harg2 x0 x1 k 17 3 2 rfl (by decide) _ (k0_off18_eq k) _ _ rfl _ a h x))
      (prod_loads arg1 harg1 arg2 harg2 x0 x1 k 18 3 3 rfl (by decide) _ (k0_off19_eq k) _ _ rfl _ a h x))
      (prod_loads arg1 harg1 arg2 harg2 x0 x1 k 19 3 4 rfl (by decide) _ (k0_off20_eq k) _ _ rfl _ a h x))
      (prod_loads arg1 harg1 arg2 harg2 x0 x1 k 20 4 0 rfl (by decide) _ (k0_off21_eq k) _ _ rfl _ a h x))
      (prod_loads arg1 harg1 arg2 harg2 x0 x1 k 21 4 1 rfl (by decide) _ (k0_off22_eq k) _ _ rfl _ a h x))
      (prod_loads arg1 harg1 arg2 harg2 x0 x1 k 22 4 2 rfl (by decide) _ (k0_off23_eq k) _ _ rfl _ a h x))
      (prod_loads arg1 harg1 arg2 harg2 x0 x1 k 23 4 3 rfl (by decide) _ (k0_off24_eq k) _ _ rfl _ a h x))
      (prod_loads arg1 harg1 arg2 harg2 x0 x1 k 24 4 4 rfl (by decide) _ (k0_off25_eq k) _ _ rfl _ a h x))

/-- Every piece the first `n` trips store has the block function's values: by induction on the trips. -/
theorem pieces_ok (c : Dev nD) (i : grid0.Coords) (arg1 : Memref sig .tc .vmem S1x64x132x132 .bf16) (harg1 : arg1.IsWhole)
    (arg2 : Memref sig .tc .vmem S1x8x25x128x128 .bf16) (harg2 : arg2.IsWhole)
    (arg3 : Memref sig .tc .vmem S1x64x128x128 .f32) (harg3 : arg3.IsWhole)
    (x0 : Vec Ideal S1x64x132x132 .bf16) (x1 : Vec Ideal S1x8x25x128x128 .bf16) :
    ∀ n : ℕ, ∀ p ∈ pb_k0_t1 (F := Ideal) Variants.none c none i arg1 harg1 arg2 harg2 arg3 harg3 (harg1.unread x0) (harg2.unread x1) n,
      ∀ y : p.1.shape.Idx, p.2 y = convBlock x0 x1 (p.1.emb y)
  | 0 => by
    intro p hp
    rw [pb_k0_t1.eq_1] at hp
    exact absurd hp List.not_mem_nil
  | n + 1 => by
    intro p hp
    rw [pb_k0_t1.eq_2] at hp
    unfold pb_k0_t1Step at hp
    split at hp
    · rcases List.mem_append.mp hp with hp | hp
      · exact trip_piece c i arg1 harg1 arg2 harg2 arg3 harg3 x0 x1 _ p hp
      · exact pieces_ok c i arg1 harg1 arg2 harg2 arg3 harg3 x0 x1 n p hp
    · exact pieces_ok c i arg1 harg1 arg2 harg2 arg3 harg3 x0 x1 n p hp

/-- The body's stores, read back, are one image's result. -/
theorem out_eq (c : Dev nD) (i : grid0.Coords) (arg1 : Memref sig .tc .vmem S1x64x132x132 .bf16) (harg1 : arg1.IsWhole)
    (arg2 : Memref sig .tc .vmem S1x8x25x128x128 .bf16) (harg2 : arg2.IsWhole)
    (arg3 : Memref sig .tc .vmem S1x64x128x128 .f32) (harg3 : arg3.IsWhole)
    (x0 : Vec Ideal S1x64x132x132 .bf16) (x1 : Vec Ideal S1x8x25x128x128 .bf16) :
    out0_A_2 (F := Ideal) c i arg1 harg1 arg2 harg2 arg3 harg3 x0 x1 = Cert.LocalConv.convBlock x0 x1 := by
  unfold out0_A_2
  rw [View.read_writes_eq_canon _ _ _ (cover0_A_2 c i arg1 harg1 arg2 harg2 arg3 harg3 x0 x1)]
  funext y
  refine View.canon_apply_of_pieces (convBlock x0 x1) _ ?_ y (cover0_A_2 c i arg1 harg1 arg2 harg2 arg3 harg3 x0 x1 y)
  have hL : (kernelRun0_A (F := Ideal) c i arg1 harg1 arg2 harg2 arg3 harg3 x0 x1).1
      = pb_k0_t1 (F := Ideal) Variants.none c none i arg1 harg1 arg2 harg2 arg3 harg3 (harg1.unread x0) (harg2.unread x1)
          k0_t1_loop.trips := by
    unfold kernelRun0_A
    rfl
  rw [hL]
  exact pieces_ok c i arg1 harg1 arg2 harg2 arg3 harg3 x0 x1 _

end Cert.LocalConv.Body

end
-- ==== Proof.KernelArray.lean ====
/-
  From one grid point's block to the whole result array.

  The host side pads the image batch by two zero rows and columns on each side of the pixel axes and unflattens
  the weights' pixel axis into rows and columns; grid point n then reads image n of both arrays and writes image
  n of the result. Image n of the result is therefore the locally weighted sum of image n of the padded batch
  with image n of the weights, and the four images together are the locally weighted sum of the whole batch.
-/
import proofs.«109893_j26439818674593_2_alg».proof.Proof.Gen.KernelIdeal.Value
import proofs.«109893_j26439818674593_2_alg».proof.Proof.BodyValue
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.LocalConv.Array

open Cert.KernelIdeal Cert.KernelIdeal.Gen Cert.KernelIdeal.Value

variable (m : (ℓ : Loc nD τ sig) → Buf (Elt Ideal) ℓ) (ρ : Dev nD → PrngReg)

/-- The batch padded by two zero rows and columns on each side of the pixel axes, as the host side forms it. -/
def padded (x : FVec Ideal S4x64x128x128 .f32) : FVec Ideal S4x64x132x132 .f32 :=
  pad S4x64x132x132 ![0, 0, 2, 2] ![0, 0, 2, 2] ![0, 0, 0, 0] x (sitofp .f32 (constantI S_ 32 0#32)) pads_S4x64x128x128_S4x64x132x132_000_000_220_220 h_S_

/-- The weights with the pixel axis unflattened into rows and columns, as the host side forms them. -/
def unflat (w : FVec Ideal S4x8x25x16384 .f32) : FVec Ideal S4x8x25x128x128 .f32 :=
  shapeCast S4x8x25x128x128 w shapeCasts_S4x8x25x16384_S4x8x25x128x128

/-- The first window's array when the region is entered: the padded batch (the change of float format is the identity). -/
theorem V_v1 (c : Dev nD) : (V m c main_v1 : S4x64x132x132.Idx → EReal)
    = truncf .bf16 (padded (m ((c : Thread nD τ).loc main_arg0))) bitsLt_bf16_f32 := by
  dsimp only [Gen.V]
  simp only [Gen.hostOps0, Gen.hostOps0_1, Gen.hostOps0_2, List.flatten_cons, List.flatten_nil, List.append_nil,
    List.cons_append, List.nil_append]
  after_results
  rfl

/-- The second window's array when the region is entered: the unflattened weights. -/
theorem V_v3 (c : Dev nD) : (V m c main_v3 : S4x8x25x128x128.Idx → EReal)
    = truncf .bf16 (unflat (m ((c : Thread nD τ).loc main_arg1))) bitsLt_bf16_f32 := by
  dsimp only [Gen.V]
  simp only [Gen.hostOps0, Gen.hostOps0_1, Gen.hostOps0_2, List.flatten_cons, List.flatten_nil, List.append_nil,
    List.cons_append, List.nil_append]
  after_results
  rfl

/-! ## The reshape of the weights, read at an index -/

/-- The unflattened weights at row h and column w of the pixel axes are the weights at pixel 128·h + w. -/
theorem unflat_apply (wt : FVec Ideal S4x8x25x16384 .f32) (n : Fin 4) (wc : Fin 8) (k : Fin 25) (h w : Fin 128) :
    unflat wt (ix5 n wc k h w) = wt (ix4 n wc k (pix h w)) := by
  unfold unflat
  refine shapeCast_apply wt _ (ix5 n wc k h w) (ix4 n wc k (pix h w)) ?_
  rw [Shape.rowMajor_val_four, Shape.rowMajor_val_five]
  show ((n.val * 8 + wc.val) * 25 + k.val) * 16384 + (128 * h.val + w.val)
      = (((n.val * 8 + wc.val) * 25 + k.val) * 128 + h.val) * 128 + w.val
  omega

/-! ## One image's sum inside the batch's -/

/-- If a block of the padded batch is image n of it and a block of the unflattened weights is image n of them,
    the block's locally weighted sum is image n of the batch's: tap by tap the same two factors. -/
theorem block_conv (xp : FVec Ideal SX .f32) (wt : FVec Ideal SW .f32) (x0 : FVec Ideal BX .bf16) (x1 : FVec Ideal BW .bf16)
    (n : Fin 4)
    (hx : ∀ (ch : Fin 64) (r q : Fin 132), x0 (ix4 0 ch r q) = xp (ix4 n ch r q))
    (hw : ∀ (wc : Fin 8) (k : Fin 25) (h w : Fin 128), x1 (ix5 0 wc k h w) = wt (ix4 n wc k (pix h w)))
    (z : Fin 1) (ch : Fin 64) (h w : Fin 128) :
    convBlock x0 x1 (ix4 z ch h w) = conv xp wt (ix4 n ch h w) := by
  rw [convBlock_apply, conv_apply]
  refine Finset.sum_congr rfl fun k _ => ?_
  unfold tapB tap
  rw [hx, hw]

/-- The same with the two indices given by their coordinates. -/
theorem block_conv_at (xp : FVec Ideal SX .f32) (wt : FVec Ideal SW .f32) (x0 : FVec Ideal BX .bf16) (x1 : FVec Ideal BW .bf16)
    (n : Fin 4)
    (hx : ∀ (ch : Fin 64) (r q : Fin 132), x0 (ix4 0 ch r q) = xp (ix4 n ch r q))
    (hw : ∀ (wc : Fin 8) (k : Fin 25) (h w : Fin 128), x1 (ix5 0 wc k h w) = wt (ix4 n wc k (pix h w)))
    (j : BO.Idx) (i : SO.Idx) (h0 : (i 0).val = n.val) (h1 : (i 1).val = (j 1).val) (h2 : (i 2).val = (j 2).val)
    (h3 : (i 3).val = (j 3).val) :
    convBlock x0 x1 j = conv xp wt i := by
  obtain ⟨z, ch, h, w, rfl⟩ : ∃ (z : Fin 1) (ch : Fin 64) (h w : Fin 128), j = ix4 z ch h w :=
    ⟨j 0, j 1, j 2, j 3, eq_ix4 j⟩
  obtain rfl : i = ix4 n ch h w := by
    funext a
    apply Fin.ext
    match a with
    | ⟨0, _⟩ => exact h0
    | ⟨1, _⟩ => exact h1
    | ⟨2, _⟩ => exact h2
    | ⟨3, _⟩ => exact h3
  exact block_conv xp wt x0 x1 n hx hw z ch h w

/-! ## The index maps over the grid, and the blocks read -/

/-- Each window's block index at grid point t is (t, 0, …, 0): point t works on image t. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 5) = t.val ∧ win0_1.index t (1 : Fin 5) = 0 ∧ win0_1.index t (2 : Fin 5) = 0
    ∧ win0_1.index t (3 : Fin 5) = 0 ∧ win0_1.index t (4 : Fin 5) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- The first window's block at point t is image t of its array. -/
theorem iblk0_apply (c : Dev nD) (t : Fin cfg0.N) (z : S1x64x132x132.Idx) (k : S4x64x132x132.Idx)
    (hk0 : (k 0).val = t.val) (hk1 : (k 1).val = (z 1).val) (hk2 : (k 2).val = (z 2).val) (hk3 : (k 3).val = (z 3).val) :
    (iblk m c 0 t : Vec Ideal S1x64x132x132 .bf16) z = (V m c main_v1 : S4x64x132x132.Idx → EReal) k := by
  obtain ⟨e0, e1, e2, e3, -⟩ := idx_facts t
  have hz : (z 0).val < 1 := (z 0).isLt
  unfold Gen.iblk
  rw [View.read_apply]
  show V m c main_v1 _ = V m c main_v1 _
  refine congrArg _ ?_
  funext a
  apply Fin.ext
  match a with
  | ⟨0, _⟩ => show win0_0.index t (0 : Fin 4) * 1 + 1 * (z 0).val = (k 0).val; omega
  | ⟨1, _⟩ => show win0_0.index t (1 : Fin 4) * 64 + 1 * (z 1).val = (k 1).val; omega
  | ⟨2, _⟩ => show win0_0.index t (2 : Fin 4) * 132 + 1 * (z 2).val = (k 2).val; omega
  | ⟨3, _⟩ => show win0_0.index t (3 : Fin 4) * 132 + 1 * (z 3).val = (k 3).val; omega

/-- The second window's block at point t is image t of its array. -/
theorem iblk1_apply (c : Dev nD) (t : Fin cfg0.N) (z : S1x8x25x128x128.Idx) (k : S4x8x25x128x128.Idx)
    (hk0 : (k 0).val = t.val) (hk1 : (k 1).val = (z 1).val) (hk2 : (k 2).val = (z 2).val) (hk3 : (k 3).val = (z 3).val)
    (hk4 : (k 4).val = (z 4).val) :
    (iblk m c 1 t : Vec Ideal S1x8x25x128x128 .bf16) z = (V m c main_v3 : S4x8x25x128x128.Idx → EReal) k := by
  obtain ⟨-, -, -, -, e0, e1, e2, e3, e4, -⟩ := idx_facts t
  have hz : (z 0).val < 1 := (z 0).isLt
  unfold Gen.iblk
  rw [View.read_apply]
  show V m c main_v3 _ = V m c main_v3 _
  refine congrArg _ ?_
  funext a
  apply Fin.ext
  match a with
  | ⟨0, _⟩ => show win0_1.index t (0 : Fin 5) * 1 + 1 * (z 0).val = (k 0).val; omega
  | ⟨1, _⟩ => show win0_1.index t (1 : Fin 5) * 8 + 1 * (z 1).val = (k 1).val; omega
  | ⟨2, _⟩ => show win0_1.index t (2 : Fin 5) * 25 + 1 * (z 2).val = (k 2).val; omega
  | ⟨3, _⟩ => show win0_1.index t (3 : Fin 5) * 128 + 1 * (z 3).val = (k 3).val; omega
  | ⟨4, _⟩ => show win0_1.index t (4 : Fin 5) * 128 + 1 * (z 4).val = (k 4).val; omega

/-! ## What a grid point writes back, the cover, the array -/

/-- Grid point t as an image number. -/
abbrev img (t : Fin cfg0.N) : Fin 4 := Fin.cast (show cfg0.N = 4 from N_0) t

/-- The first window's block at point t is image t of the padded batch. -/
theorem iblk0_eq (c : Dev nD) (t : Fin cfg0.N) (ch : Fin 64) (r q : Fin 132) :
    (iblk m c 0 t : Vec Ideal S1x64x132x132 .bf16) (ix4 0 ch r q)
      = padded (m ((c : Thread nD τ).loc main_arg0)) (ix4 (img t) ch r q) :=
  (iblk0_apply m c t (ix4 0 ch r q) (ix4 (img t) ch r q) rfl rfl rfl rfl).trans
    ((congrFun (V_v1 m c) (ix4 (img t) ch r q)).trans
      (truncf_apply (ψ := .bf16) (padded (m ((c : Thread nD τ).loc main_arg0))) bitsLt_bf16_f32 (ix4 (img t) ch r q)))

/-- The second window's block at point t is image t of the weights, the pixel axis as rows and columns. -/
theorem iblk1_eq (c : Dev nD) (t : Fin cfg0.N) (wc : Fin 8) (k : Fin 25) (h w : Fin 128) :
    (iblk m c 1 t : Vec Ideal S1x8x25x128x128 .bf16) (ix5 0 wc k h w)
      = (m ((c : Thread nD τ).loc main_arg1) : FVec Ideal S4x8x25x16384 .f32) (ix4 (img t) wc k (pix h w)) :=
  (iblk1_apply m c t (ix5 0 wc k h w) (ix5 (img t) wc k h w) rfl rfl rfl rfl rfl).trans
    ((congrFun (V_v3 m c) (ix5 (img t) wc k h w)).trans
      ((truncf_apply (ψ := .bf16) (unflat (m ((c : Thread nD τ).loc main_arg1))) bitsLt_bf16_f32 (ix5 (img t) wc k h w)).trans
        (unflat_apply _ (img t) wc k h w)))

/-- WHAT POINT t WRITES BACK is block t — image t — of the batch's locally weighted sum. -/
theorem flushed_eq (c : Dev nD) (t : Fin cfg0.N) :
    (dats (F := Ideal) m 0 c).flushed 2 t
      = ((cfg0.win 2).blk t).view.read (Elt Ideal)
          (conv (padded (m ((c : Thread nD τ).loc main_arg0))) (m ((c : Thread nD τ).loc main_arg1))) := by
  refine (Value.flushed2_A m c t).trans ?_
  rw [Cert.LocalConv.Body.out_eq c (grid0.coords t) (ms0_0 t) (hs0_0 t) (ms0_1 t) (hs0_1 t) (ms0_2 t) (hs0_2 t)
    (iblk m c 0 t) (iblk m c 1 t)]
  obtain ⟨-, -, -, -, -, -, -, -, -, e0, e1, e2, e3⟩ := idx_facts t
  funext y
  rw [View.read_apply]
  refine block_conv_at _ _ _ _ (img t) (iblk0_eq m c t) (iblk1_eq m c t) _ _ ?_ ?_ ?_ ?_
  · show win0_2.index t (0 : Fin 4) * 1 + 1 * (y 0).val = t.val
    have hy : (y 0).val < 1 := (y 0).isLt
    omega
  · show win0_2.index t (1 : Fin 4) * 64 + 1 * (y 1).val = (y 1).val
    omega
  · show win0_2.index t (2 : Fin 4) * 128 + 1 * (y 2).val = (y 2).val
    omega
  · show win0_2.index t (3 : Fin 4) * 128 + 1 * (y 3).val = (y 3).val
    omega

/-- An index of the result array is in point t's block iff each coordinate is in the block's range on its axis. -/
theorem mem_blk (t : Fin cfg0.N) (i : S4x64x128x128.Idx) :
    i ∈ ((cfg0.win 2).blk t).view.set ↔ ∀ a : Fin 4, win0_2.index t a * S1x64x128x128.size a ≤ (i a).val
      ∧ (i a).val < win0_2.index t a * S1x64x128x128.size a + S1x64x128x128.size a := by
  show i ∈ ((View.whole main_v4).slice (win0_2.rect t)).set ↔ _
  rw [View.set_slice_whole, Rect.mem_set_unit]
  exact Iff.rfl

/-- Every index of the result array is in the block of the point of its image, and every point writes back. -/
theorem cover (i : S4x64x128x128.Idx) :
    ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 128 := (i 2).isLt
  have hi3 : (i 3).val < 128 := (i 3).isLt
  refine ⟨Fin.cast (show 4 = cfg0.N from N_0.symm) ⟨(i 0).val, hi0⟩, flush0_2 _, ?_⟩
  obtain ⟨-, -, -, -, -, -, -, -, -, e0, e1, e2, e3⟩ :=
    idx_facts (Fin.cast (show 4 = cfg0.N from N_0.symm) ⟨(i 0).val, hi0⟩)
  have e0' : win0_2.index (Fin.cast (show 4 = cfg0.N from N_0.symm) ⟨(i 0).val, hi0⟩) (0 : Fin 4) = (i 0).val := e0
  rw [mem_blk]
  intro a
  match a with
  | ⟨0, _⟩ =>
    show win0_2.index _ (0 : Fin 4) * 1 ≤ (i 0).val ∧ (i 0).val < win0_2.index _ (0 : Fin 4) * 1 + 1
    omega
  | ⟨1, _⟩ =>
    show win0_2.index _ (1 : Fin 4) * 64 ≤ (i 1).val ∧ (i 1).val < win0_2.index _ (1 : Fin 4) * 64 + 64
    omega
  | ⟨2, _⟩ =>
    show win0_2.index _ (2 : Fin 4) * 128 ≤ (i 2).val ∧ (i 2).val < win0_2.index _ (2 : Fin 4) * 128 + 128
    omega
  | ⟨3, _⟩ =>
    show win0_2.index _ (3 : Fin 4) * 128 ≤ (i 3).val ∧ (i 3).val < win0_2.index _ (3 : Fin 4) * 128 + 128
    omega

/-- THE RESULT ARRAY after the run is the locally weighted sum of the padded batch with the weights. -/
theorem final (c : Dev nD) :
    (dats (F := Ideal) m 0 c).arrAt 2 cfg0.N
      = Cert.LocalConv.conv (padded (m ((c : Thread nD τ).loc main_arg0))) (m ((c : Thread nD τ).loc main_arg1)) :=
  (dats (F := Ideal) m 0 c).arrAt_eq_of_cover 2 _ (fun t _ => flushed_eq m c t) cover

/-- The run, read: the result array at the locally weighted sum, the arguments unchanged. -/
theorem run :
    θ_run defs (onTc (τ := τ) (main (F := Ideal))) ⟨m, fun _ => 0, ρ⟩ fun r => ∀ c : Dev nD,
      r.2.mem ((c : Thread nD τ).loc main_v4)
          = Cert.LocalConv.conv (padded (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.LocalConv.Array

end
-- ==== Proof.RefValue.lean ====
/-
  The reference program's result is the locally weighted sum of the specification.

  The reference pads the batch, cuts the 25 shifted copies of the padded batch that the 5×5 window reads (copy `k`
  starts at row `k / 5`, column `k % 5`), stacks them along a new axis, splits the channel axis into 8 groups of 8,
  multiplies by the weights — reshaped so that their pixel axis becomes rows and columns, and shared by the groups —
  and sums over the stacking axis from zero. Read index by index: the stack at `(n, ch, k, h, w)` is the padded
  batch at `(n, ch, h + k / 5, w + k % 5)`; the two reshapes only regroup row-major positions; the sum from zero is
  the sum. The padded batch itself is never opened.
-/
import proofs.«109893_j26439818674593_2_alg».proof.Proof.Gen.ReferenceIdeal.Read
import proofs.«109893_j26439818674593_2_alg».proof.Proof.Spec
import Idealize.ShloMosaic.Lib.Pipeline.Value
import Idealize.ShloMosaic.Lib.ValueIdx
import Idealize.ShloMosaic.Lib.ValueIdxRank6
import Idealize.ShloMosaic.PureOps.Ideal.Laws

noncomputable section

open Idealize.ShloMosaic Idealize.ShloMosaic.ValueIdx
open Cert.ReferenceIdeal Cert.ReferenceIdeal.Gen Cert.ReferenceIdeal.Read
open scoped BigOperators

namespace Cert.LocalConv.Ref

/-- The group of channel `ch`: channel `ch = 8·g + c` lies in group `g` and reads weight channel `c = wch ch`. -/
def grp (ch : Fin 64) : Fin 8 := ⟨ch.val / 8, by have := ch.isLt; omega⟩

/-! ### One shifted copy of the padded batch, with its unit axis -/

/-- A slice of a `[4, 64, 132, 132]` array that starts at row `r`, column `c`, given a unit axis in third place,
    reads at `(n, ch, 0, h, w)` the array at `(n, ch, h + r, w + c)`: for `r = k / 5`, `c = k % 5` the entry tap `k`
    of the window at `(h, w)` reads. -/
theorem slab_read {α : Type} (y : S4x64x132x132.Idx → α) (k : Fin 25) (r c : Nat) (hr : r = k.val / 5) (hc : c = k.val % 5)
    (hs : S4x64x132x132.Slices ![0, 0, r, c] S4x64x128x128)
    (hb : S4x64x128x128.BroadcastsInDim S4x64x1x128x128 (![0, 1, 3, 4] : Fin 4 → Fin S4x64x1x128x128.rank))
    (n : Fin 4) (ch : Fin 64) (z : Fin 1) (h w : Fin 128) :
    broadcastInDim S4x64x1x128x128 ![0, 1, 3, 4] hb (extractStridedSlice S4x64x128x128 ![0, 0, r, c] y hs) (ix5 n ch z h w)
      = y (ix4 n ch (tapRow h k) (tapCol w k)) := by
  refine (broadcastInDim_apply _ hb _ (ix5 n ch z h w) (ix4 n ch h w) (fun a => ?_)).trans ?_
  · match a with
    | ⟨0, _⟩ => show n.val = if (4 : Nat) = 1 then 0 else n.val; rw [if_neg (by decide)]
    | ⟨1, _⟩ => show ch.val = if (64 : Nat) = 1 then 0 else ch.val; rw [if_neg (by decide)]
    | ⟨2, _⟩ => show h.val = if (128 : Nat) = 1 then 0 else h.val; rw [if_neg (by decide)]
    | ⟨3, _⟩ => show w.val = if (128 : Nat) = 1 then 0 else w.val; rw [if_neg (by decide)]
  · exact extractStridedSlice_apply _ y hs (ix4 n ch h w) (ix4 n ch (tapRow h k) (tapCol w k)) (fun a => by
      match a with
      | ⟨0, _⟩ => show n.val = 0 + n.val; omega
      | ⟨1, _⟩ => show ch.val = 0 + ch.val; omega
      | ⟨2, _⟩ => show h.val + k.val / 5 = r + h.val; omega
      | ⟨3, _⟩ => show w.val + k.val % 5 = c + w.val; omega)

/-- The sixteen copies the first concatenation stacks (taps 0 to 15) … -/
def lo (x0 : (⟨S4x64x128x128, .f32⟩ : BufTy).Contents (Elt Ideal)) : Fin 16 → (S4x64x1x128x128.Idx → Elt Ideal .f32) :=
  ![val_main_v26 (F := Ideal) x0, val_main_v27 (F := Ideal) x0, val_main_v28 (F := Ideal) x0, val_main_v29 (F := Ideal) x0, val_main_v30 (F := Ideal) x0, val_main_v31 (F := Ideal) x0, val_main_v32 (F := Ideal) x0, val_main_v33 (F := Ideal) x0, val_main_v34 (F := Ideal) x0, val_main_v35 (F := Ideal) x0, val_main_v36 (F := Ideal) x0, val_main_v37 (F := Ideal) x0, val_main_v38 (F := Ideal) x0, val_main_v39 (F := Ideal) x0, val_main_v40 (F := Ideal) x0, val_main_v41 (F := Ideal) x0]

/-- … and the nine the second stacks (taps 16 to 24). -/
def hi (x0 : (⟨S4x64x128x128, .f32⟩ : BufTy).Contents (Elt Ideal)) : Fin 9 → (S4x64x1x128x128.Idx → Elt Ideal .f32) :=
  ![val_main_v42 (F := Ideal) x0, val_main_v43 (F := Ideal) x0, val_main_v44 (F := Ideal) x0, val_main_v45 (F := Ideal) x0, val_main_v46 (F := Ideal) x0, val_main_v47 (F := Ideal) x0, val_main_v48 (F := Ideal) x0, val_main_v49 (F := Ideal) x0, val_main_v50 (F := Ideal) x0]

/-- Copy `k` of the first sixteen is the padded batch shifted by tap `k`. -/
theorem lo_apply (x0 : (⟨S4x64x128x128, .f32⟩ : BufTy).Contents (Elt Ideal)) (n : Fin 4) (ch : Fin 64) (z : Fin 1) (h w : Fin 128) :
    ∀ (k : Fin 16) (k' : Fin 25), k'.val = k.val →
      lo x0 k (ix5 n ch z h w) = val_main_v0 (F := Ideal) x0 (ix4 n ch (tapRow h k') (tapCol w k'))
  | ⟨0, _⟩, k', hk => by
    obtain rfl : k' = ⟨0, by decide⟩ := Fin.ext hk
    exact slab_read (val_main_v0 (F := Ideal) x0) _ 0 0 rfl rfl slices_S4x64x132x132_S4x64x128x128_0_0_0_0
      bcast_S4x64x128x128_S4x64x1x128x128_0_1_3_4 n ch z h w
  | ⟨1, _⟩, k', hk => by
    obtain rfl : k' = ⟨1, by decide⟩ := Fin.ext hk
    exact slab_read (val_main_v0 (F := Ideal) x0) _ 0 1 rfl rfl slices_S4x64x132x132_S4x64x128x128_0_0_0_1
      bcast_S4x64x128x128_S4x64x1x128x128_0_1_3_4 n ch z h w
  | ⟨2, _⟩, k', hk => by
    obtain rfl : k' = ⟨2, by decide⟩ := Fin.ext hk
    exact slab_read (val_main_v0 (F := Ideal) x0) _ 0 2 rfl rfl slices_S4x64x132x132_S4x64x128x128_0_0_0_2
      bcast_S4x64x128x128_S4x64x1x128x128_0_1_3_4 n ch z h w
  | ⟨3, _⟩, k', hk => by
    obtain rfl : k' = ⟨3, by decide⟩ := Fin.ext hk
    exact slab_read (val_main_v0 (F := Ideal) x0) _ 0 3 rfl rfl slices_S4x64x132x132_S4x64x128x128_0_0_0_3
      bcast_S4x64x128x128_S4x64x1x128x128_0_1_3_4 n ch z h w
  | ⟨4, _⟩, k', hk => by
    obtain rfl : k' = ⟨4, by decide⟩ := Fin.ext hk
    exact slab_read (val_main_v0 (F := Ideal) x0) _ 0 4 rfl rfl slices_S4x64x132x132_S4x64x128x128_0_0_0_4
      bcast_S4x64x128x128_S4x64x1x128x128_0_1_3_4 n ch z h w
  | ⟨5, _⟩, k', hk => by
    obtain rfl : k' = ⟨5, by decide⟩ := Fin.ext hk
    exact slab_read (val_main_v0 (F := Ideal) x0) _ 1 0 rfl rfl slices_S4x64x132x132_S4x64x128x128_0_0_1_0
      bcast_S4x64x128x128_S4x64x1x128x128_0_1_3_4 n ch z h w
  | ⟨6, _⟩, k', hk => by
    obtain rfl : k' = ⟨6, by decide⟩ := Fin.ext hk
    exact slab_read (val_main_v0 (F := Ideal) x0) _ 1 1 rfl rfl slices_S4x64x132x132_S4x64x128x128_0_0_1_1
      bcast_S4x64x128x128_S4x64x1x128x128_0_1_3_4 n ch z h w
  | ⟨7, _⟩, k', hk => by
    obtain rfl : k' = ⟨7, by decide⟩ := Fin.ext hk
    exact slab_read (val_main_v0 (F := Ideal) x0) _ 1 2 rfl rfl slices_S4x64x132x132_S4x64x128x128_0_0_1_2
      bcast_S4x64x128x128_S4x64x1x128x128_0_1_3_4 n ch z h w
  | ⟨8, _⟩, k', hk => by
    obtain rfl : k' = ⟨8, by decide⟩ := Fin.ext hk
    exact slab_read (val_main_v0 (F := Ideal) x0) _ 1 3 rfl rfl slices_S4x64x132x132_S4x64x128x128_0_0_1_3
      bcast_S4x64x128x128_S4x64x1x128x128_0_1_3_4 n ch z h w
  | ⟨9, _⟩, k', hk => by
    obtain rfl : k' = ⟨9, by decide⟩ := Fin.ext hk
    exact slab_read (val_main_v0 (F := Ideal) x0) _ 1 4 rfl rfl slices_S4x64x132x132_S4x64x128x128_0_0_1_4
      bcast_S4x64x128x128_S4x64x1x128x128_0_1_3_4 n ch z h w
  | ⟨10, _⟩, k', hk => by
    obtain rfl : k' = ⟨10, by decide⟩ := Fin.ext hk
    exact slab_read (val_main_v0 (F := Ideal) x0) _ 2 0 rfl rfl slices_S4x64x132x132_S4x64x128x128_0_0_2_0
      bcast_S4x64x128x128_S4x64x1x128x128_0_1_3_4 n ch z h w
  | ⟨11, _⟩, k', hk => by
    obtain rfl : k' = ⟨11, by decide⟩ := Fin.ext hk
    exact slab_read (val_main_v0 (F := Ideal) x0) _ 2 1 rfl rfl slices_S4x64x132x132_S4x64x128x128_0_0_2_1
      bcast_S4x64x128x128_S4x64x1x128x128_0_1_3_4 n ch z h w
  | ⟨12, _⟩, k', hk => by
    obtain rfl : k' = ⟨12, by decide⟩ := Fin.ext hk
    exact slab_read (val_main_v0 (F := Ideal) x0) _ 2 2 rfl rfl slices_S4x64x132x132_S4x64x128x128_0_0_2_2
      bcast_S4x64x128x128_S4x64x1x128x128_0_1_3_4 n ch z h w
  | ⟨13, _⟩, k', hk => by
    obtain rfl : k' = ⟨13, by decide⟩ := Fin.ext hk
    exact slab_read (val_main_v0 (F := Ideal) x0) _ 2 3 rfl rfl slices_S4x64x132x132_S4x64x128x128_0_0_2_3
      bcast_S4x64x128x128_S4x64x1x128x128_0_1_3_4 n ch z h w
  | ⟨14, _⟩, k', hk => by
    obtain rfl : k' = ⟨14, by decide⟩ := Fin.ext hk
    exact slab_read (val_main_v0 (F := Ideal) x0) _ 2 4 rfl rfl slices_S4x64x132x132_S4x64x128x128_0_0_2_4
      bcast_S4x64x128x128_S4x64x1x128x128_0_1_3_4 n ch z h w
  | ⟨15, _⟩, k', hk => by
    obtain rfl : k' = ⟨15, by decide⟩ := Fin.ext hk
    exact slab_read (val_main_v0 (F := Ideal) x0) _ 3 0 rfl rfl slices_S4x64x132x132_S4x64x128x128_0_0_3_0
      bcast_S4x64x128x128_S4x64x1x128x128_0_1_3_4 n ch z h w
  | ⟨n + 16, hn⟩, _, _ => absurd hn (by omega)

/-- Copy `k` of the last nine is the padded batch shifted by tap `16 + k`. -/
theorem hi_apply (x0 : (⟨S4x64x128x128, .f32⟩ : BufTy).Contents (Elt Ideal)) (n : Fin 4) (ch : Fin 64) (z : Fin 1) (h w : Fin 128) :
    ∀ (k : Fin 9) (k' : Fin 25), k'.val = k.val + 16 →
      hi x0 k (ix5 n ch z h w) = val_main_v0 (F := Ideal) x0 (ix4 n ch (tapRow h k') (tapCol w k'))
  | ⟨0, _⟩, k', hk => by
    obtain rfl : k' = ⟨16, by decide⟩ := Fin.ext hk
    exact slab_read (val_main_v0 (F := Ideal) x0) _ 3 1 rfl rfl slices_S4x64x132x132_S4x64x128x128_0_0_3_1
      bcast_S4x64x128x128_S4x64x1x128x128_0_1_3_4 n ch z h w
  | ⟨1, _⟩, k', hk => by
    obtain rfl : k' = ⟨17, by decide⟩ := Fin.ext hk
    exact slab_read (val_main_v0 (F := Ideal) x0) _ 3 2 rfl rfl slices_S4x64x132x132_S4x64x128x128_0_0_3_2
      bcast_S4x64x128x128_S4x64x1x128x128_0_1_3_4 n ch z h w
  | ⟨2, _⟩, k', hk => by
    obtain rfl : k' = ⟨18, by decide⟩ := Fin.ext hk
    exact slab_read (val_main_v0 (F := Ideal) x0) _ 3 3 rfl rfl slices_S4x64x132x132_S4x64x128x128_0_0_3_3
      bcast_S4x64x128x128_S4x64x1x128x128_0_1_3_4 n ch z h w
  | ⟨3, _⟩, k', hk => by
    obtain rfl : k' = ⟨19, by decide⟩ := Fin.ext hk
    exact slab_read (val_main_v0 (F := Ideal) x0) _ 3 4 rfl rfl slices_S4x64x132x132_S4x64x128x128_0_0_3_4
      bcast_S4x64x128x128_S4x64x1x128x128_0_1_3_4 n ch z h w
  | ⟨4, _⟩, k', hk => by
    obtain rfl : k' = ⟨20, by decide⟩ := Fin.ext hk
    exact slab_read (val_main_v0 (F := Ideal) x0) _ 4 0 rfl rfl slices_S4x64x132x132_S4x64x128x128_0_0_4_0
      bcast_S4x64x128x128_S4x64x1x128x128_0_1_3_4 n ch z h w
  | ⟨5, _⟩, k', hk => by
    obtain rfl : k' = ⟨21, by decide⟩ := Fin.ext hk
    exact slab_read (val_main_v0 (F := Ideal) x0) _ 4 1 rfl rfl slices_S4x64x132x132_S4x64x128x128_0_0_4_1
      bcast_S4x64x128x128_S4x64x1x128x128_0_1_3_4 n ch z h w
  | ⟨6, _⟩, k', hk => by
    obtain rfl : k' = ⟨22, by decide⟩ := Fin.ext hk
    exact slab_read (val_main_v0 (F := Ideal) x0) _ 4 2 rfl rfl slices_S4x64x132x132_S4x64x128x128_0_0_4_2
      bcast_S4x64x128x128_S4x64x1x128x128_0_1_3_4 n ch z h w
  | ⟨7, _⟩, k', hk => by
    obtain rfl : k' = ⟨23, by decide⟩ := Fin.ext hk
    exact slab_read (val_main_v0 (F := Ideal) x0) _ 4 3 rfl rfl slices_S4x64x132x132_S4x64x128x128_0_0_4_3
      bcast_S4x64x128x128_S4x64x1x128x128_0_1_3_4 n ch z h w
  | ⟨8, _⟩, k', hk => by
    obtain rfl : k' = ⟨24, by decide⟩ := Fin.ext hk
    exact slab_read (val_main_v0 (F := Ideal) x0) _ 4 4 rfl rfl slices_S4x64x132x132_S4x64x128x128_0_0_4_4
      bcast_S4x64x128x128_S4x64x1x128x128_0_1_3_4 n ch z h w
  | ⟨n + 9, hn⟩, _, _ => absurd hn (by omega)

/-! ### The three concatenations -/

/-- The stack of the first sixteen copies, at `(n, ch, k, h, w)`, is copy `k`. -/
theorem cat_lo (x0 : (⟨S4x64x128x128, .f32⟩ : BufTy).Contents (Elt Ideal)) (n : Fin 4) (ch : Fin 64) (k : Fin 16) (h w : Fin 128) :
    val_main_v51 (F := Ideal) x0 (ix5 n ch k h w) = lo x0 k (ix5 n ch (0 : Fin 1) h w) := by
  unfold val_main_v51
  exact concatenate_ofFn_unit_apply (t := S4x64x16x128x128) (s₁ := S4x64x1x128x128) 2 (lo x0) _ rfl rfl (ix5 n ch k h w) k rfl
    (ix5 n ch (0 : Fin 1) h w) (fun b hb => by
      match b, hb with
      | ⟨0, _⟩, _ => rfl
      | ⟨1, _⟩, _ => rfl
      | ⟨2, _⟩, hb => exact absurd rfl hb
      | ⟨3, _⟩, _ => rfl
      | ⟨4, _⟩, _ => rfl)

/-- The stack of the last nine copies, at `(n, ch, k, h, w)`, is copy `k` of those. -/
theorem cat_hi (x0 : (⟨S4x64x128x128, .f32⟩ : BufTy).Contents (Elt Ideal)) (n : Fin 4) (ch : Fin 64) (k : Fin 9) (h w : Fin 128) :
    val_main_v52 (F := Ideal) x0 (ix5 n ch k h w) = hi x0 k (ix5 n ch (0 : Fin 1) h w) := by
  unfold val_main_v52
  exact concatenate_ofFn_unit_apply (t := S4x64x9x128x128) (s₁ := S4x64x1x128x128) 2 (hi x0) _ rfl rfl (ix5 n ch k h w) k rfl
    (ix5 n ch (0 : Fin 1) h w) (fun b hb => by
      match b, hb with
      | ⟨0, _⟩, _ => rfl
      | ⟨1, _⟩, _ => rfl
      | ⟨2, _⟩, hb => exact absurd rfl hb
      | ⟨3, _⟩, _ => rfl
      | ⟨4, _⟩, _ => rfl)

/-- **The 25 copies stacked**: at `(n, ch, k, h, w)` the padded batch at `(n, ch, h + k / 5, w + k % 5)`. -/
theorem patches_apply (x0 : (⟨S4x64x128x128, .f32⟩ : BufTy).Contents (Elt Ideal)) (n : Fin 4) (ch : Fin 64) (k : Fin 25) (h w : Fin 128) :
    val_main_v53 (F := Ideal) x0 (ix5 n ch k h w) = val_main_v0 (F := Ideal) x0 (ix4 n ch (tapRow h k) (tapCol w k)) := by
  unfold val_main_v53
  by_cases hk : k.val < 16
  · refine (concatenate_pair_apply_left (t := S4x64x25x128x128) 2 (val_main_v51 (F := Ideal) x0) (val_main_v52 (F := Ideal) x0) _
      (ix5 n ch k h w) rfl (ix5 n ch (⟨k.val, hk⟩ : Fin 16) h w) (fun b => by
        match b with
        | ⟨0, _⟩ => rfl
        | ⟨1, _⟩ => rfl
        | ⟨2, _⟩ => rfl
        | ⟨3, _⟩ => rfl
        | ⟨4, _⟩ => rfl)).trans ?_
    exact (cat_lo x0 n ch ⟨k.val, hk⟩ h w).trans (lo_apply x0 n ch 0 h w ⟨k.val, hk⟩ k rfl)
  · have hk9 : k.val - 16 < 9 := by have := k.isLt; omega
    refine (concatenate_pair_apply_right (t := S4x64x25x128x128) 2 (val_main_v51 (F := Ideal) x0) (val_main_v52 (F := Ideal) x0) _
      (ix5 n ch k h w) rfl rfl (ix5 n ch (⟨k.val - 16, hk9⟩ : Fin 9) h w) (fun b hb => by
        match b, hb with
        | ⟨0, _⟩, _ => rfl
        | ⟨1, _⟩, _ => rfl
        | ⟨2, _⟩, hb => exact absurd rfl hb
        | ⟨3, _⟩, _ => rfl
        | ⟨4, _⟩, _ => rfl) (by show k.val - 16 + 16 = k.val; omega)).trans ?_
    exact (cat_hi x0 n ch ⟨k.val - 16, hk9⟩ h w).trans (hi_apply x0 n ch 0 h w ⟨k.val - 16, hk9⟩ k (by show k.val = k.val - 16 + 16; omega))

/-! ### The two reshapes, the broadcast over the groups, the product, the sum -/

/-- The stack with its channel axis split into 8 groups of 8: group `ch / 8`, member `ch % 8` is channel `ch`. -/
theorem split_apply (x0 : (⟨S4x64x128x128, .f32⟩ : BufTy).Contents (Elt Ideal)) (n : Fin 4) (ch : Fin 64) (k : Fin 25) (h w : Fin 128) :
    val_main_v54 (F := Ideal) x0 (ix6 n (grp ch) (wch ch) k h w) = val_main_v53 (F := Ideal) x0 (ix5 n ch k h w) := by
  unfold val_main_v54
  generalize val_main_v53 (F := Ideal) x0 = y
  exact shapeCast_apply y shapeCasts_S4x64x25x128x128_S4x8x8x25x128x128 (ix6 n (grp ch) (wch ch) k h w) (ix5 n ch k h w) (by
    rewrite [Shape.rowMajor_val_five, Shape.rowMajor_val_six]
    have h1 : ch.val < 64 := ch.isLt
    show (((n.val * 64 + ch.val) * 25 + k.val) * 128 + h.val) * 128 + w.val
      = ((((n.val * 8 + ch.val / 8) * 8 + ch.val % 8) * 25 + k.val) * 128 + h.val) * 128 + w.val
    omega)

/-- The weights with their pixel axis unflattened into rows and columns, and a unit axis for the groups. -/
theorem weights_apply (x1 : (⟨S4x8x25x16384, .f32⟩ : BufTy).Contents (Elt Ideal)) (n : Fin 4) (c : Fin 8) (k : Fin 25) (h w : Fin 128) :
    val_main_v55 (F := Ideal) x1 (ix6 n (0 : Fin 1) c k h w) = x1 (ix4 n c k (pix h w)) := by
  unfold val_main_v55
  exact shapeCast_apply x1 shapeCasts_S4x8x25x16384_S4x1x8x25x128x128 (ix6 n (0 : Fin 1) c k h w) (ix4 n c k (pix h w)) (by
    rewrite [Shape.rowMajor_val_four, Shape.rowMajor_val_six]
    show ((n.val * 8 + c.val) * 25 + k.val) * 16384 + (128 * h.val + w.val)
      = ((((n.val * 1 + 0) * 8 + c.val) * 25 + k.val) * 128 + h.val) * 128 + w.val
    omega)

/-- The result's index `(n, ch, h, w)` in the grouped layout the sum is formed in. -/
theorem idx_out (n : Fin 4) (ch : Fin 64) (h w : Fin 128) :
    idx_main_v59 (ix4 n ch h w) = ix5 n (grp ch) (wch ch) h w := by
  have h0 : n.val < 4 := n.isLt
  have h1 : ch.val < 64 := ch.isLt
  have h2 : h.val < 128 := h.isLt
  have h3 : w.val < 128 := w.isLt
  funext a
  apply Fin.ext
  match a with
  | ⟨0, _⟩ => show (((n.val * 64 + ch.val) * 128 + h.val) * 128 + w.val) / 1048576 = n.val; omega
  | ⟨1, _⟩ => show (((n.val * 64 + ch.val) * 128 + h.val) * 128 + w.val) / 131072 % 8 = ch.val / 8; omega
  | ⟨2, _⟩ => show (((n.val * 64 + ch.val) * 128 + h.val) * 128 + w.val) / 16384 % 8 = ch.val % 8; omega
  | ⟨3, _⟩ => show (((n.val * 64 + ch.val) * 128 + h.val) * 128 + w.val) / 128 % 128 = h.val; omega
  | ⟨4, _⟩ => show (((n.val * 64 + ch.val) * 128 + h.val) * 128 + w.val) % 128 = w.val; omega

/-- The summand's index: tap `k` put on the summed axis. -/
theorem idx_sum (n : Fin 4) (g c : Fin 8) (h w : Fin 128) (k : Fin 25) :
    idx_main_v58 (ix5 n g c h w) k = ix6 n g c k h w := by
  funext a
  match a with
  | ⟨0, _⟩ => rfl
  | ⟨1, _⟩ => rfl
  | ⟨2, _⟩ => rfl
  | ⟨3, _⟩ => rfl
  | ⟨4, _⟩ => rfl
  | ⟨5, _⟩ => rfl

/-- The weights' index under the broadcast over the groups: the group forgotten. -/
theorem idx_bcast (n : Fin 4) (g c : Fin 8) (k : Fin 25) (h w : Fin 128) :
    idx_main_v56 (ix6 n g c k h w) = ix6 n (0 : Fin 1) c k h w := by
  funext a
  match a with
  | ⟨0, _⟩ => rfl
  | ⟨1, _⟩ => rfl
  | ⟨2, _⟩ => rfl
  | ⟨3, _⟩ => rfl
  | ⟨4, _⟩ => rfl
  | ⟨5, _⟩ => rfl

/-- The sum over the stacking axis from zero, in the grouped layout, is the 25 taps' products summed. -/
theorem sum_apply (x0 : (⟨S4x64x128x128, .f32⟩ : BufTy).Contents (Elt Ideal)) (x1 : (⟨S4x8x25x16384, .f32⟩ : BufTy).Contents (Elt Ideal)) (n : Fin 4) (ch : Fin 64) (h w : Fin 128) :
    val_main_v58 (F := Ideal) x0 x1 (ix5 n (grp ch) (wch ch) h w)
      = ∑ k : Fin 25, tap (val_main_v0 (F := Ideal) x0) x1 n ch h w k := by
  rw [val_main_v58_apply, val_main_cst_apply, Ideal.ofBits_def, Ideal.ofBits_zero_f32, zero_add]
  refine Finset.sum_congr rfl fun k _ => ?_
  rw [idx_sum, val_main_v57_apply, Ideal.mulf_def, split_apply, patches_apply, val_main_v56_apply, idx_bcast, weights_apply]
  rfl

/-- **The reference program's result is the specification's sum**, over the padded batch as the program forms it. -/
theorem ref_eq (x0 : (⟨S4x64x128x128, .f32⟩ : BufTy).Contents (Elt Ideal)) (x1 : (⟨S4x8x25x16384, .f32⟩ : BufTy).Contents (Elt Ideal)) :
    Cert.ReferenceIdeal.Read.val_main_v59 (F := Ideal) x0 x1
      = Cert.LocalConv.conv (Cert.ReferenceIdeal.Read.val_main_v0 (F := Ideal) x0) x1 := by
  funext j
  obtain ⟨n, ch, h, w, rfl⟩ : ∃ (n : Fin 4) (ch : Fin 64) (h w : Fin 128), j = ix4 n ch h w := ⟨j 0, j 1, j 2, j 3, eq_ix4 j⟩
  rw [conv_apply, val_main_v59_apply, idx_out, sum_apply]

end Cert.LocalConv.Ref

end
-- ==== Proof.lean ====
/-
  The kernel and its reference compute one function: a 5×5 locally weighted sum with per-pixel weights,
      out[n, ch, h, w] = Σ_{k < 25} xp[n, ch, h + k / 5, w + k % 5] · wt[n, ch % 8, k, 128·h + w],
  `xp` the batch padded by two zero rows and columns on each side (Spec.lean, `conv`).

  The kernel pads the batch and unflattens the weights' pixel axis on the host, then runs one grid point per image;
  a grid point loops over the eight channel groups, and for each accumulates the 25 taps' products from zero
  (Taps.lean, BodyValue.lean); the four images' blocks are the whole result (KernelArray.lean). The reference stacks
  the 25 shifted slices of the padded batch, multiplies by the weights broadcast over the groups and sums over the
  taps (RefValue.lean). The two differ only in the order of a 25-term sum of extended reals and in changes of float
  format, which are the identity on the extended reals; the padded batch is the same term on both sides and is never
  opened. Nothing was rewritten on the way to the idealized kernel: it is the kernel's own text read over the
  extended reals.
-/
import proofs.«109893_j26439818674593_2_alg».proof.Defs
import proofs.«109893_j26439818674593_2_alg».proof.Proof.Gen.Kernel
import proofs.«109893_j26439818674593_2_alg».proof.Proof.Gen.Kernel.Skeleton
import proofs.«109893_j26439818674593_2_alg».proof.Proof.Gen.Kernel.Loops
import proofs.«109893_j26439818674593_2_alg».proof.Proof.Gen.Kernel.Launch
import proofs.«109893_j26439818674593_2_alg».proof.Proof.Gen.Kernel.Points
import proofs.«109893_j26439818674593_2_alg».proof.Proof.Gen.Kernel.Frame
import proofs.«109893_j26439818674593_2_alg».proof.Proof.Gen.KernelIdeal
import proofs.«109893_j26439818674593_2_alg».proof.Proof.Gen.KernelIdeal.Skeleton
import proofs.«109893_j26439818674593_2_alg».proof.Proof.Gen.KernelIdeal.Loops
import proofs.«109893_j26439818674593_2_alg».proof.Proof.Gen.KernelIdeal.Launch
import proofs.«109893_j26439818674593_2_alg».proof.Proof.Gen.KernelIdeal.Points
import proofs.«109893_j26439818674593_2_alg».proof.Proof.Gen.KernelIdeal.Frame
import proofs.«109893_j26439818674593_2_alg».proof.Proof.Gen.ReferenceIdeal
import proofs.«109893_j26439818674593_2_alg».proof.Proof.Gen.KernelIdeal.Value
import proofs.«109893_j26439818674593_2_alg».proof.Proof.Gen.ReferenceIdeal.Run
import proofs.«109893_j26439818674593_2_alg».proof.Proof.Gen.ReferenceIdeal.Read
import proofs.«109893_j26439818674593_2_alg».proof.Proof.Gen.Pre_finite_inputs
import proofs.«109893_j26439818674593_2_alg».proof.Proof.KernelArray
import proofs.«109893_j26439818674593_2_alg».proof.Proof.RefValue
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both programs end with `conv` of the padded batch and the weights: the kernel's result array block by block, the
    reference's as its operations' term read index by index; the two padded batches are one term of arguments that agree. -/
theorem algebraic : Cert.algebraic_KernelIdeal_ReferenceIdeal := by
  intro m ρ m' ρ' _ hagree
  refine ⟨_, Cert.LocalConv.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.LocalConv.Ref.ref_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
